-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg8 : FVec F S128 .f32) (main_arg14 : FVec F S128 .f32) (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg8 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg14 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg8 : FVec F S128 .f32) (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg8 main_arg14 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x10 : Shape := ⟨2, ![100000, 10]⟩
abbrev S5000x10 : Shape := ⟨2, ![5000, 10]⟩
abbrev S1600000x10 : Shape := ⟨2, ![1600000, 10]⟩
abbrev S1x10 : Shape := ⟨2, ![1, 10]⟩

abbrev nBuf : Space → Nat
  | .hbm => 137
  | .vmem => 33
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x10, .f32⟩
  | 16 => ⟨S10, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x1, .f32⟩
  | 65 => ⟨S100000x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S128, .f32⟩
  | 73 => ⟨S128, .f32⟩
  | 74 => ⟨S128, .f32⟩
  | 75 => ⟨S128, .f32⟩
  | 76 => ⟨S1x128, .f32⟩
  | 77 => ⟨S1x128, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S1600000x1, .f32⟩
  | 90 => ⟨S1600000x128, .f32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x1, .f32⟩
  | 97 => ⟨S100000x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S128, .f32⟩
  | 105 => ⟨S128, .f32⟩
  | 106 => ⟨S128, .f32⟩
  | 107 => ⟨S128, .f32⟩
  | 108 => ⟨S1x128, .f32⟩
  | 109 => ⟨S1x128, .f32⟩
  | 110 => ⟨S100000x128, .f32⟩
  | 111 => ⟨S100000x10, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x10, .f32⟩
  | 121 => ⟨S1600000x1, .f32⟩
  | 122 => ⟨S1600000x10, .f32⟩
  | 123 => ⟨S1600000x10, .f32⟩
  | 124 => ⟨S_, .f32⟩
  | 125 => ⟨S100000x10, .f32⟩
  | 126 => ⟨S1600000x1, .i32⟩
  | 127 => ⟨S100000x10, .f32⟩
  | _ => ⟨S100000x128, .f32⟩

abbrev hbmTy0_1 (i : Nat) : BufTy := match i % 128 with
  | 0 => ⟨S100000x1, .f32⟩
  | 1 => ⟨S100000x10, .f32⟩
  | 2 => ⟨S100000x10, .f32⟩
  | 3 => ⟨S100000x10, .f32⟩
  | 4 => ⟨S_, .f32⟩
  | 5 => ⟨S10, .f32⟩
  | 6 => ⟨S1x10, .f32⟩
  | 7 => ⟨S1x10, .f32⟩
  | 8 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x10, .f32⟩
  | .local _ .vmem, ⟨25, _⟩ => ⟨S5000x10, .f32⟩
  | .local _ .vmem, ⟨26, _⟩ => ⟨S5000x10, .f32⟩
  | .local _ .vmem, ⟨27, _⟩ => ⟨S5000x10, .f32⟩
  | .local _ .vmem, ⟨28, _⟩ => ⟨S5000x10, .f32⟩
  | .local _ .vmem, ⟨29, _⟩ => ⟨S1x10, .f32⟩
  | .local _ .vmem, ⟨30, _⟩ => ⟨S1x10, .f32⟩
  | .local _ .vmem, ⟨31, _⟩ => ⟨S5000x10, .f32⟩
  | .local _ .vmem, ⟨32, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_13 : Ref sig .tc := ⟨.hbm, 112, rfl⟩
abbrev main_v80 : Ref sig .tc := ⟨.hbm, 113, rfl⟩
abbrev main_v81 : Ref sig .tc := ⟨.hbm, 114, rfl⟩
abbrev main_c_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_15 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_16 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x10 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S_S10 : S_.BroadcastsInDim S10 (![] : Fin 0 → Fin S10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x10_S5000x10_1_0_0_1_n_n_wf : DotDims.WF S5000x128 S128x10 S5000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x10.size a ≤ S100000x10.size a
  hwx4_2 : ∀ i : grid4.Coords, EltTy.bits .f32 = 32 ∨ (Rect.block (s := S100000x10) S5000x10.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S100000x10.size a
  hwx5_0 : ∀ i : grid5.Coords, EltTy.bits .f32 = 32 ∨ (Rect.block (s := S100000x10) S5000x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x10.size a ≤ S100000x10.size a
  hwx5_3 : ∀ i : grid5.Coords, EltTy.bits .f32 = 32 ∨ (Rect.block (s := S100000x10) S5000x10.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x10.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S5000x10.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x10, .f32⟩
  | 16 => ⟨S10, .f32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S1600000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S1600000x1, .f32⟩
  | 2 => ⟨S1600000x128, .f32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x10, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x10, .f32⟩
  | 74 => ⟨S1600000x1, .f32⟩
  | 75 => ⟨S1600000x10, .f32⟩
  | 76 => ⟨S1600000x10, .f32⟩
  | 77 => ⟨S_, .f32⟩
  | 78 => ⟨S100000x10, .f32⟩
  | 79 => ⟨S1600000x1, .i32⟩
  | 80 => ⟨S100000x10, .f32⟩
  | 81 => ⟨S100000, .f32⟩
  | 82 => ⟨S100000x1, .f32⟩
  | 83 => ⟨S100000x10, .f32⟩
  | 84 => ⟨S100000x10, .f32⟩
  | 85 => ⟨S100000x10, .f32⟩
  | 86 => ⟨S1x10, .f32⟩
  | 87 => ⟨S100000x10, .f32⟩
  | 88 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call0_cst : Ref sig .tc := ⟨.hbm, 87, rfl⟩
abbrev main_call0_v0 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_19 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call1_cst : Ref sig .tc := ⟨.hbm, 160, rfl⟩
abbrev main_call1_v0 : Ref sig .tc := ⟨.hbm, 161, rfl⟩
abbrev main_v119 : Ref sig .tc := ⟨.hbm, 162, rfl⟩
abbrev main_v120 : Ref sig .tc := ⟨.hbm, 163, rfl⟩
abbrev main_cst_20 : Ref sig .tc := ⟨.hbm, 164, rfl⟩
abbrev main_v121 : Ref sig .tc := ⟨.hbm, 165, rfl⟩
abbrev main_cst_21 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_22 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_c_23 : Ref sig .tc := ⟨.hbm, 174, rfl⟩
abbrev main_v128 : Ref sig .tc := ⟨.hbm, 175, rfl⟩
abbrev main_v129 : Ref sig .tc := ⟨.hbm, 176, rfl⟩
abbrev main_c_24 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_25 : Ref sig .tc := ⟨.hbm, 183, rfl⟩
abbrev main_v135 : Ref sig .tc := ⟨.hbm, 184, rfl⟩
abbrev main_v136 : Ref sig .tc := ⟨.hbm, 185, rfl⟩
abbrev main_c_26 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_27 : Ref sig .tc := ⟨.hbm, 193, rfl⟩
abbrev main_v143 : Ref sig .tc := ⟨.hbm, 194, rfl⟩
abbrev main_v144 : Ref sig .tc := ⟨.hbm, 195, rfl⟩
abbrev main_c_28 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_29 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.KernelRun.lean ====
/-
  The run of the idealized kernel program with its result named.

  The program is ten segments: stretches of host operations and six launches.  Its run folds the buffer
  contents through the segments; at the end every buffer holds what the fold `W10` gives it.  The statement
  here keeps, besides the unchanged argument arrays, the result buffer at the fold's value.
-/
import proofs.«129800_j83099027243500_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's value and the
    argument arrays end as launched. -/
theorem run_result : θ_run defs (onTc (τ := τ) (main (F := F))) ⟨m, fun _ => 0, ρ⟩ (fun r => ∀ c : Dev nD,
      r.2.mem ((c.tc : Thread nD τ).loc main_v100) = W10 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v100 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.Result

end
-- ==== Proof.Spec.lean ====
/-
  The three-layer graph convolution as one function of the argument arrays.

  Every layer is: a dense product h = x W; the normalised neighbourhood sum
      agg = scatter_add over dst of (h[src] * coef) + h * dinv^2,   dinv = rsqrt (in-degree + 1),
  where coef = dinv[src] * dinv[dst]; then a per-column affine map and (for the first two layers) a
  maximum with zero.  The gathers and the accumulating scatters are kept as the host operations they are:
  both programs apply the same ones to the same index arrays, so nothing here reads them at an index.
  What differs between the two programs is only how the per-column affine map is grouped:
      ((agg + b) - mu) * rsqrt (v + eps) * g + be          against          agg * s + ((b - mu) * s + be),  s = g * rsqrt (v + eps).
-/
import proofs.«129800_j83099027243500_1_alg».proof.Proof.Gen.ReferenceIdeal
import Idealize.ShloMosaic.PureOps.Ideal

noncomputable section

namespace Cert.Gcn

open Idealize.ShloMosaic Cert.ReferenceIdeal Cert.ReferenceIdeal.Gen

/-- The destination indices as a column of index vectors. -/
def idxCol (dst : IVec S1600000 32) : IVec S1600000x1 32 :=
  broadcastInDim S1600000x1 ![0] bcast_S1600000_S1600000x1_0 dst

/-- Negative indices count from the end: i < 0 is read as i + 100000; then the column of index vectors. -/
def wrapCol (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- dinv = rsqrt (number of edges into the node + 1). -/
def dinv (dst : IVec S1600000 32) : FVec Ideal S100000 .f32 :=
  Host.rsqrt (addf (Host.scatterAdd scatter_S100000_S1600000x1_S1600000_n_0_0_1
      (broadcastInDim S100000 ![] bcast_S_S100000 (constant S_ .f32 0x00000000#32)) (idxCol dst)
      (broadcastInDim S1600000 ![] bcast_S_S1600000 (constant S_ .f32 0x3F800000#32)))
    (broadcastInDim S100000 ![] bcast_S_S100000 (constant S_ .f32 0x3F800000#32)))

/-- The weight of an edge: dinv[src] * dinv[dst]. -/
def coef (src dst : IVec S1600000 32) : FVec Ideal S1600000 .f32 :=
  mulf (Host.gather gather_S100000_S1600000x1_S1600000_n_0_n_n_0_1_1 (dinv dst) (wrapCol src))
    (Host.gather gather_S100000_S1600000x1_S1600000_n_0_n_n_0_1_1 (dinv dst) (wrapCol dst))

/-- The weight of a node's own row: dinv * dinv. -/
def selfw (dst : IVec S1600000 32) : FVec Ideal S100000 .f32 := mulf (dinv dst) (dinv dst)

/-- The normalised neighbourhood sum of 128-column rows. -/
def agg128 (h : FVec Ideal S100000x128 .f32) (cf : FVec Ideal S1600000 .f32) (sw : FVec Ideal S100000 .f32)
    (src dst : IVec S1600000 32) : FVec Ideal S100000x128 .f32 :=
  addf (Host.scatterAdd scatter_S100000x128_S1600000x1_S1600000x128_1_0_0_1
      (broadcastInDim S100000x128 ![] bcast_S_S100000x128 (constant S_ .f32 0x00000000#32)) (idxCol dst)
      (mulf (Host.gather gather_S100000x128_S1600000x1_S1600000x128_1_0_n_n_0_1_1128 h (wrapCol src))
        (broadcastInDim S1600000x128 ![0, 1] bcast_S1600000x1_S1600000x128_0_1
          (broadcastInDim S1600000x1 ![0] bcast_S1600000_S1600000x1_0 cf))))
    (mulf h (broadcastInDim S100000x128 ![0, 1] bcast_S100000x1_S100000x128_0_1
      (broadcastInDim S100000x1 ![0] bcast_S100000_S100000x1_0 sw)))

/-- The normalised neighbourhood sum of 10-column rows. -/
def agg10 (h : FVec Ideal S100000x10 .f32) (cf : FVec Ideal S1600000 .f32) (sw : FVec Ideal S100000 .f32)
    (src dst : IVec S1600000 32) : FVec Ideal S100000x10 .f32 :=
  addf (Host.scatterAdd scatter_S100000x10_S1600000x1_S1600000x10_1_0_0_1
      (broadcastInDim S100000x10 ![] bcast_S_S100000x10 (constant S_ .f32 0x00000000#32)) (idxCol dst)
      (mulf (Host.gather gather_S100000x10_S1600000x1_S1600000x10_1_0_n_n_0_1_110 h (wrapCol src))
        (broadcastInDim S1600000x10 ![0, 1] bcast_S1600000x1_S1600000x10_0_1
          (broadcastInDim S1600000x1 ![0] bcast_S1600000_S1600000x1_0 cf))))
    (mulf h (broadcastInDim S100000x10 ![0, 1] bcast_S100000x1_S100000x10_0_1
      (broadcastInDim S100000x1 ![0] bcast_S100000_S100000x1_0 sw)))

/-- The dense products. -/
def lin128 (x : FVec Ideal S100000x128 .f32) (w : FVec Ideal S128x128 .f32) : FVec Ideal S100000x128 .f32 :=
  Host.dotGeneral dot_S100000x128_S128x128_S100000x128_1_0_0_1_n_n none x w
def lin10 (x : FVec Ideal S100000x128 .f32) (w : FVec Ideal S128x10 .f32) : FVec Ideal S100000x10 .f32 :=
  Host.dotGeneral dot_S100000x128_S128x10_S100000x10_1_0_0_1_n_n none x w

/-- A vector of 128 column values repeated along the 100000 rows. -/
def rows128 (u : FVec Ideal S128 .f32) : FVec Ideal S100000x128 .f32 :=
  broadcastInDim S100000x128 ![0, 1] bcast_S1x128_S100000x128_0_1 (broadcastInDim S1x128 ![1] bcast_S128_S1x128_1 u)
def rows10 (u : FVec Ideal S10 .f32) : FVec Ideal S100000x10 .f32 :=
  broadcastInDim S100000x10 ![0, 1] bcast_S1x10_S100000x10_0_1 (broadcastInDim S1x10 ![1] bcast_S10_S1x10_1 u)

/-- rsqrt (v + eps), eps the float nearest 1e-5. -/
def rstd (v : FVec Ideal S128 .f32) : FVec Ideal S128 .f32 :=
  Host.rsqrt (addf v (broadcastInDim S128 ![] bcast_S_S128 (constant S_ .f32 0x3727C5AC#32)))

/-- Bias, batch normalisation with stored statistics, and the maximum with zero, as the reference groups them. -/
def bnRelu (a : FVec Ideal S100000x128 .f32) (b mu v g be : FVec Ideal S128 .f32) : FVec Ideal S100000x128 .f32 :=
  maximumf (addf (mulf (mulf (subf (addf a (rows128 b)) (rows128 mu)) (rows128 (rstd v))) (rows128 g)) (rows128 be))
    (broadcastInDim S100000x128 ![] bcast_S_S100000x128 (constant S_ .f32 0x00000000#32))

/-- The reference's result of the seventeen argument arrays. -/
def refOut (x : FVec Ideal S100000x128 .f32) (src dst : IVec S1600000 32)
    (W1 : FVec Ideal S128x128 .f32) (b1 g1 be1 m1 v1 : FVec Ideal S128 .f32)
    (W2 : FVec Ideal S128x128 .f32) (b2 g2 be2 m2 v2 : FVec Ideal S128 .f32)
    (W3 : FVec Ideal S128x10 .f32) (b3 : FVec Ideal S10 .f32) : FVec Ideal S100000x10 .f32 :=
  addf (agg10 (lin10 (bnRelu (agg128 (lin128 (bnRelu (agg128 (lin128 x W1) (coef src dst) (selfw dst) src dst) b1 m1 v1 g1 be1) W2)
      (coef src dst) (selfw dst) src dst) b2 m2 v2 g2 be2) W3) (coef src dst) (selfw dst) src dst) (rows10 b3)

end Cert.Gcn

end
-- ==== Proof.KernelSpec.lean ====
/-
  The kernel program's result as one function of the argument arrays.

  The kernel folds each layer's bias and batch normalisation into one scale row and one shift row,
      s = g * rsqrt (v + eps),      sh = (b - mu) * s + be,
  computed once on 128 columns and recast as 1x128 rows, and its elementwise launches compute
  max (agg * s + sh, 0) (layers one and two) or agg * 1 + b (layer three) entry by entry, the row repeated along
  the 100000 rows.  The dense products and the neighbourhood sums are the functions of `Cert.Gcn` already named.
-/
import proofs.«129800_j83099027243500_1_alg».proof.Proof.Spec
import Idealize.ShloMosaic.Lib.ValueIdx

noncomputable section

namespace Cert.Gcn

open Idealize.ShloMosaic Idealize.ShloMosaic.ValueIdx Cert.ReferenceIdeal Cert.ReferenceIdeal.Gen

/-- The scale row: g * rsqrt (v + eps) as a 1x128 row. -/
def scaleRow (hc : S128.ShapeCasts S1x128) (g v : FVec Ideal S128 .f32) : FVec Ideal S1x128 .f32 :=
  shapeCast S1x128 (mulf g (rstd v)) hc

/-- The shift row: (b - mu) * (g * rsqrt (v + eps)) + be as a 1x128 row. -/
def shiftRow (hc : S128.ShapeCasts S1x128) (b mu g v be : FVec Ideal S128 .f32) : FVec Ideal S1x128 .f32 :=
  shapeCast S1x128 (addf (mulf (subf b mu) (mulf g (rstd v))) be) hc

/-- The row of ten ones and the bias as a 1x10 row. -/
def onesRow (hb : S_.BroadcastsInDim S10 (![] : Fin S_.rank → Fin S10.rank)) (hc : S10.ShapeCasts S1x10) : FVec Ideal S1x10 .f32 :=
  shapeCast S1x10 (broadcastInDim S10 ![] hb (constant S_ .f32 0x3F800000#32)) hc
def biasRow (hc : S10.ShapeCasts S1x10) (b : FVec Ideal S10 .f32) : FVec Ideal S1x10 .f32 := shapeCast S1x10 b hc

/-- Entry by entry: max (a * scale + shift, 0), the rows repeated along the 100000 rows. -/
def affRelu (a : FVec Ideal S100000x128 .f32) (sc sh : FVec Ideal S1x128 .f32) : FVec Ideal S100000x128 .f32 :=
  fun i => max (a i * sc (ix2 (0 : Fin 1) (i 1)) + sh (ix2 (0 : Fin 1) (i 1))) 0

/-- Entry by entry: a * scale + shift on ten columns. -/
def aff10 (a : FVec Ideal S100000x10 .f32) (sc sh : FVec Ideal S1x10 .f32) : FVec Ideal S100000x10 .f32 :=
  fun i => a i * sc (ix2 (0 : Fin 1) (i 1)) + sh (ix2 (0 : Fin 1) (i 1))

/-- The kernel program's result of the seventeen argument arrays. -/
def kerOut (hb10 : S_.BroadcastsInDim S10 (![] : Fin S_.rank → Fin S10.rank)) (h128 : S128.ShapeCasts S1x128) (h10 : S10.ShapeCasts S1x10)
    (x : FVec Ideal S100000x128 .f32) (src dst : IVec S1600000 32)
    (W1 : FVec Ideal S128x128 .f32) (b1 g1 be1 m1 v1 : FVec Ideal S128 .f32)
    (W2 : FVec Ideal S128x128 .f32) (b2 g2 be2 m2 v2 : FVec Ideal S128 .f32)
    (W3 : FVec Ideal S128x10 .f32) (b3 : FVec Ideal S10 .f32) : FVec Ideal S100000x10 .f32 :=
  aff10 (agg10 (lin10
      (affRelu (agg128 (lin128
          (affRelu (agg128 (lin128 x W1) (coef src dst) (selfw dst) src dst) (scaleRow h128 g1 v1) (shiftRow h128 b1 m1 g1 v1 be1))
          W2) (coef src dst) (selfw dst) src dst) (scaleRow h128 g2 v2) (shiftRow h128 b2 m2 g2 v2 be2))
      W3) (coef src dst) (selfw dst) src dst) (onesRow hb10 h10) (biasRow h10 b3)

end Cert.Gcn

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.DotFacts.lean ====
/-
  Two coordinate facts about a product's dimension numbers.

  For dimension numbers with no batch axis, the left operand's one free axis reads the result's first coordinate
  and the right operand's one free axis reads the result's coordinate after the left operand's free axes.
-/
import Idealize.ShloMosaic.PureOps.Dims

namespace Cert.Gcn.Dot

open Idealize.ShloMosaic

variable {sl sr so : Shape} (d : DotDims sl sr so)

/-- With no batch axis and one free axis `a` on the left, the left operand's index on `a` is the result's coordinate 0. -/
theorem lhsIdx_free {a : Fin sl.rank} (hb : d.lhsBatch = []) (hn : d.lhsNonContracting = [a]) (h0 : 0 < so.rank)
    (j : so.Idx) (k : d.contr.Idx) : (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and one free axis `a` on the right, the right operand's index on
    `a` is the result's coordinate 1. -/
theorem rhsIdx_free {a : Fin sr.rank} {al : Fin sl.rank} (hb : d.rhsBatch = []) (hbl : d.lhsBatch = [])
    (hnl : d.lhsNonContracting = [al]) (hn : d.rhsNonContracting = [a]) (h1 : 1 < so.rank)
    (j : so.Idx) (k : d.contr.Idx) : (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hn])

end Cert.Gcn.Dot
-- ==== Proof.LinearLaunches.lean ====
/-
  The three dense-product launches.

  Each launch walks twenty row blocks of 5000 rows: at point t it stages rows 5000 t .. 5000 t + 4999 of the
  left operand and the whole weight matrix, multiplies them into a zero accumulator, and writes the product back
  to the same rows of the output.  A matrix product is row-local, so block t of the output is block t of the
  whole product, and the twenty blocks cover the array: after the launch the output array IS the whole product.
-/
import proofs.«129800_j83099027243500_1_alg».proof.Proof.Gen.KernelIdeal.Frame
import proofs.«129800_j83099027243500_1_alg».proof.Proof.Spec
import proofs.«129800_j83099027243500_1_alg».proof.Proof.LibPlainDot
import proofs.«129800_j83099027243500_1_alg».proof.Proof.DotFacts
import Idealize.ShloMosaic.Lib.Pipeline.Value
import Idealize.ShloMosaic.Lib.ValueIdx
import Idealize.ShloMosaic.PureOps.Ideal.Laws

set_option maxRecDepth 16384

noncomputable section

open scoped BigOperators

namespace Cert.Gcn

open Idealize.ShloMosaic Idealize.ShloMosaic.ValueIdx

/-- The whole 100000x128 by 128x128 product at an index. -/
theorem lin128_apply (x : FVec Ideal Cert.ReferenceIdeal.S100000x128 .f32) (w : FVec Ideal Cert.ReferenceIdeal.S128x128 .f32)
    (i : Cert.ReferenceIdeal.S100000x128.Idx) : lin128 x w i = ∑ q : Fin 128, x (ix2 (i 0) q) * w (ix2 q (i 1)) :=
  Cert.Lib.PlainDot.dotGeneral_apply Cert.ReferenceIdeal.dot_S100000x128_S128x128_S100000x128_1_0_0_1_n_n rfl rfl
    (fun j q => Cert.Gcn.Dot.lhsIdx_free _ (a := 0) rfl rfl (by decide) j q)
    (fun j q => DotDims.lhsIdx_val_of_single _ (cl := 1) rfl j q)
    (fun j q => DotDims.rhsIdx_val_of_single _ (cr := 0) rfl j q)
    (fun j q => Cert.Gcn.Dot.rhsIdx_free _ (a := 1) (al := 0) rfl rfl rfl rfl (by decide) j q)
    none .single x w i

/-- The whole 100000x128 by 128x10 product at an index. -/
theorem lin10_apply (x : FVec Ideal Cert.ReferenceIdeal.S100000x128 .f32) (w : FVec Ideal Cert.ReferenceIdeal.S128x10 .f32)
    (i : Cert.ReferenceIdeal.S100000x10.Idx) : lin10 x w i = ∑ q : Fin 128, x (ix2 (i 0) q) * w (ix2 q (i 1)) :=
  Cert.Lib.PlainDot.dotGeneral_apply Cert.ReferenceIdeal.dot_S100000x128_S128x10_S100000x10_1_0_0_1_n_n rfl rfl
    (fun j q => Cert.Gcn.Dot.lhsIdx_free _ (a := 0) rfl rfl (by decide) j q)
    (fun j q => DotDims.lhsIdx_val_of_single _ (cl := 1) rfl j q)
    (fun j q => DotDims.rhsIdx_val_of_single _ (cr := 0) rfl j q)
    (fun j q => Cert.Gcn.Dot.rhsIdx_free _ (a := 1) (al := 0) rfl rfl rfl rfl (by decide) j q)
    none .single x w i

end Cert.Gcn

namespace Cert.KernelIdeal.Launches

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## Launch 0: a dense product, 5000 rows at a time -/

section Launch0
variable (V : (c : Dev nD) → (b : Ref sig .tc) → Buf (Elt Ideal) ((c : Thread nD τ).loc b))

/-- The block's product read at an index: row `j 0` of the block against column `j 1` of the weights. -/
theorem pay0_apply (x0 : Vec Ideal S5000x128 .f32) (x1 : Vec Ideal S128x128 .f32) (j : S5000x128.Idx) :
    k0_pay1 (F := Ideal) x0 x1 j = ∑ q : Fin 128, x0 (ix2 (j 0) q) * x1 (ix2 q (j 1)) := by
  have e : k0_pay1 (F := Ideal) x0 x1 = FloatOps.matmul dot_S5000x128_S128x128_S5000x128_1_0_0_1_n_n none x0 x1 (constant S5000x128 .f32 0x00000000#32) := rfl
  rw [e]
  exact Cert.Lib.PlainDot.matmul_zero_apply dot_S5000x128_S128x128_S5000x128_1_0_0_1_n_n rfl rfl
    (fun j q => Cert.Gcn.Dot.lhsIdx_free dot_S5000x128_S128x128_S5000x128_1_0_0_1_n_n (a := 0) rfl rfl (by decide) j q)
    (fun j q => dot_S5000x128_S128x128_S5000x128_1_0_0_1_n_n.lhsIdx_val_of_single (cl := 1) rfl j q)
    (fun j q => dot_S5000x128_S128x128_S5000x128_1_0_0_1_n_n.rhsIdx_val_of_single (cr := 0) rfl j q)
    (fun j q => Cert.Gcn.Dot.rhsIdx_free dot_S5000x128_S128x128_S5000x128_1_0_0_1_n_n (a := 1) (al := 0) rfl rfl rfl rfl (by decide) j q)
    none x0 x1 j

/-- The printed index maps over the grid: block `t` of the row-blocked arrays starts at row block `t`; the weights have one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx_onto0 : ∀ q0 : Fin 20, ∃ t : Fin cfg0.N, t.val = q0.val :=
  (by decide +kernel : ∀ q0 : Fin 20, ∃ t : Fin grid0.N, t.val = q0.val)

/-- What point `t` writes back is block `t` of the whole product. -/
theorem flushed0 (c : Dev nD) (t : Fin cfg0.N) :
    (dat0 V c).flushed 2 t = ((cfg0.win 2).blk t).view.read (Elt Ideal) (Cert.Gcn.lin128 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  show k0_pay1 (F := Ideal) (fun y => V c main_arg0 (((cfg0.win 0).blk t).view.emb y)) (fun y => V c main_arg3 (((cfg0.win 1).blk t).view.emb y)) j
    = Cert.Gcn.lin128 (V c main_arg0) (V c main_arg3) (((cfg0.win 2).blk t).view.emb j)
  refine (pay0_apply _ _ j).trans ?_
  refine Eq.trans ?_ (Cert.Gcn.lin128_apply _ _ _).symm
  refine Finset.sum_congr rfl fun q _ => ?_
  have h0 : ((cfg0.win 0).blk t).view.emb (ix2 (j 0) q) = ix2 ((((cfg0.win 2).blk t).view.emb j) 0) q := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  have h1 : ((cfg0.win 1).blk t).view.emb (ix2 q (j 1)) = ix2 q ((((cfg0.win 2).blk t).view.emb j) 1) := by
    funext a; apply Fin.ext
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega
  exact congrArg₂ (fun u w : EReal => u * w) (congrArg _ h0) (congrArg _ h1)

theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- The twenty row blocks cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have ht' : t.val = (i 0).val / 5000 := ht
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the whole product of the input arrays as the launch found them. -/
theorem final0 (c : Dev nD) : (dat0 V c).arrAt 2 cfg0.N = Cert.Gcn.lin128 (V c main_arg0) (V c main_arg3) :=
  (dat0 V c).arrAt_eq_of_cover 2 _ (fun t _ => flushed0 V c t) (cover0)

end Launch0

/-! ## Launch 2: a dense product, 5000 rows at a time -/

section Launch2
variable (V : (c : Dev nD) → (b : Ref sig .tc) → Buf (Elt Ideal) ((c : Thread nD τ).loc b))

/-- The block's product read at an index: row `j 0` of the block against column `j 1` of the weights. -/
theorem pay2_apply (x0 : Vec Ideal S5000x128 .f32) (x1 : Vec Ideal S128x128 .f32) (j : S5000x128.Idx) :
    k2_pay1 (F := Ideal) x0 x1 j = ∑ q : Fin 128, x0 (ix2 (j 0) q) * x1 (ix2 q (j 1)) := by
  have e : k2_pay1 (F := Ideal) x0 x1 = FloatOps.matmul dot_S5000x128_S128x128_S5000x128_1_0_0_1_n_n none (shapeCast S5000x128 x0 shapeCasts_S5000x128_S5000x128) x1 (constant S5000x128 .f32 0x00000000#32) := rfl
  rw [e, shapeCast_self]
  exact Cert.Lib.PlainDot.matmul_zero_apply dot_S5000x128_S128x128_S5000x128_1_0_0_1_n_n rfl rfl
    (fun j q => Cert.Gcn.Dot.lhsIdx_free dot_S5000x128_S128x128_S5000x128_1_0_0_1_n_n (a := 0) rfl rfl (by decide) j q)
    (fun j q => dot_S5000x128_S128x128_S5000x128_1_0_0_1_n_n.lhsIdx_val_of_single (cl := 1) rfl j q)
    (fun j q => dot_S5000x128_S128x128_S5000x128_1_0_0_1_n_n.rhsIdx_val_of_single (cr := 0) rfl j q)
    (fun j q => Cert.Gcn.Dot.rhsIdx_free dot_S5000x128_S128x128_S5000x128_1_0_0_1_n_n (a := 1) (al := 0) rfl rfl rfl rfl (by decide) j q)
    none x0 x1 j

/-- The printed index maps over the grid: block `t` of the row-blocked arrays starts at row block `t`; the weights have one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem idx_onto2 : ∀ q0 : Fin 20, ∃ t : Fin cfg2.N, t.val = q0.val :=
  (by decide +kernel : ∀ q0 : Fin 20, ∃ t : Fin grid2.N, t.val = q0.val)

/-- What point `t` writes back is block `t` of the whole product. -/
theorem flushed2 (c : Dev nD) (t : Fin cfg2.N) :
    (dat2 V c).flushed 2 t = ((cfg2.win 2).blk t).view.read (Elt Ideal) (Cert.Gcn.lin128 (V c main_v50) (V c main_arg9)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts2 t
  funext j
  show k2_pay1 (F := Ideal) (fun y => V c main_v50 (((cfg2.win 0).blk t).view.emb y)) (fun y => V c main_arg9 (((cfg2.win 1).blk t).view.emb y)) j
    = Cert.Gcn.lin128 (V c main_v50) (V c main_arg9) (((cfg2.win 2).blk t).view.emb j)
  refine (pay2_apply _ _ j).trans ?_
  refine Eq.trans ?_ (Cert.Gcn.lin128_apply _ _ _).symm
  refine Finset.sum_congr rfl fun q _ => ?_
  have h0 : ((cfg2.win 0).blk t).view.emb (ix2 (j 0) q) = ix2 ((((cfg2.win 2).blk t).view.emb j) 0) q := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * q.val = q.val; omega
  have h1 : ((cfg2.win 1).blk t).view.emb (ix2 q (j 1)) = ix2 q ((((cfg2.win 2).blk t).view.emb j) 1) := by
    funext a; apply Fin.ext
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega
  exact congrArg₂ (fun u w : EReal => u * w) (congrArg _ h0) (congrArg _ h1)

theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The twenty row blocks cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have ht' : t.val = (i 0).val / 5000 := ht
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the output array is the whole product of the input arrays as the launch found them. -/
theorem final2 (c : Dev nD) : (dat2 V c).arrAt 2 cfg2.N = Cert.Gcn.lin128 (V c main_v50) (V c main_arg9) :=
  (dat2 V c).arrAt_eq_of_cover 2 _ (fun t _ => flushed2 V c t) (cover2)

end Launch2

/-! ## Launch 4: a dense product, 5000 rows at a time -/

section Launch4
variable (V : (c : Dev nD) → (b : Ref sig .tc) → Buf (Elt Ideal) ((c : Thread nD τ).loc b))

/-- The block's product read at an index: row `j 0` of the block against column `j 1` of the weights. -/
theorem pay4_apply (x0 : Vec Ideal S5000x128 .f32) (x1 : Vec Ideal S128x10 .f32) (j : S5000x10.Idx) :
    k4_pay1 (F := Ideal) x0 x1 j = ∑ q : Fin 128, x0 (ix2 (j 0) q) * x1 (ix2 q (j 1)) := by
  have e : k4_pay1 (F := Ideal) x0 x1 = FloatOps.matmul dot_S5000x128_S128x10_S5000x10_1_0_0_1_n_n none (shapeCast S5000x128 x0 shapeCasts_S5000x128_S5000x128) x1 (constant S5000x10 .f32 0x00000000#32) := rfl
  rw [e, shapeCast_self]
  exact Cert.Lib.PlainDot.matmul_zero_apply dot_S5000x128_S128x10_S5000x10_1_0_0_1_n_n rfl rfl
    (fun j q => Cert.Gcn.Dot.lhsIdx_free dot_S5000x128_S128x10_S5000x10_1_0_0_1_n_n (a := 0) rfl rfl (by decide) j q)
    (fun j q => dot_S5000x128_S128x10_S5000x10_1_0_0_1_n_n.lhsIdx_val_of_single (cl := 1) rfl j q)
    (fun j q => dot_S5000x128_S128x10_S5000x10_1_0_0_1_n_n.rhsIdx_val_of_single (cr := 0) rfl j q)
    (fun j q => Cert.Gcn.Dot.rhsIdx_free dot_S5000x128_S128x10_S5000x10_1_0_0_1_n_n (a := 1) (al := 0) rfl rfl rfl rfl (by decide) j q)
    none x0 x1 j

/-- The printed index maps over the grid: block `t` of the row-blocked arrays starts at row block `t`; the weights have one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem idx_onto4 : ∀ q0 : Fin 20, ∃ t : Fin cfg4.N, t.val = q0.val :=
  (by decide +kernel : ∀ q0 : Fin 20, ∃ t : Fin grid4.N, t.val = q0.val)

/-- What point `t` writes back is block `t` of the whole product. -/
theorem flushed4 (c : Dev nD) (t : Fin cfg4.N) :
    (dat4 V c).flushed 2 t = ((cfg4.win 2).blk t).view.read (Elt Ideal) (Cert.Gcn.lin10 (V c main_v78) (V c main_arg15)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x10) hz]
  obtain ⟨e0, e1, e2, e3, e4, e5⟩ := idx_facts4 t
  funext j
  show k4_pay1 (F := Ideal) (fun y => V c main_v78 (((cfg4.win 0).blk t).view.emb y)) (fun y => V c main_arg15 (((cfg4.win 1).blk t).view.emb y)) j
    = Cert.Gcn.lin10 (V c main_v78) (V c main_arg15) (((cfg4.win 2).blk t).view.emb j)
  refine (pay4_apply _ _ j).trans ?_
  refine Eq.trans ?_ (Cert.Gcn.lin10_apply _ _ _).symm
  refine Finset.sum_congr rfl fun q _ => ?_
  have h0 : ((cfg4.win 0).blk t).view.emb (ix2 (j 0) q) = ix2 ((((cfg4.win 2).blk t).view.emb j) 0) q := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * q.val = q.val; omega
  have h1 : ((cfg4.win 1).blk t).view.emb (ix2 q (j 1)) = ix2 q ((((cfg4.win 2).blk t).view.emb j) 1) := by
    funext a; apply Fin.ext
    match a with
    | ⟨0, _⟩ => show win4_1.index t (0 : Fin 2) * 128 + 1 * q.val = q.val; omega
    | ⟨1, _⟩ => show win4_1.index t (1 : Fin 2) * 10 + 1 * (j 1).val = win4_2.index t (1 : Fin 2) * 10 + 1 * (j 1).val; omega
  exact congrArg₂ (fun u w : EReal => u * w) (congrArg _ h0) (congrArg _ h1)

theorem mem_blk4 (t : Fin cfg4.N) (i : S100000x10.Idx) :
    i ∈ ((cfg4.win 2).blk t).view.set ↔ ∀ a : Fin 2, win4_2.index t a * S5000x10.size a ≤ (i a).val ∧ (i a).val < win4_2.index t a * S5000x10.size a + S5000x10.size a := by
  show i ∈ ((View.whole main_v79).slice (win4_2.rect t)).set ↔ _
  rw [View.set_slice_whole, Rect.mem_set_unit]
  exact Iff.rfl

/-- The twenty row blocks cover the array. -/
theorem cover4 (i : S100000x10.Idx) : ∃ t : Fin cfg4.N, (cfg4.win 2).flush t = true ∧ i ∈ ((cfg4.win 2).blk t).view.set := by
  have hi0 : (i 0).val < 100000 := (i 0).isLt
  have hi1 : (i 1).val < 10 := (i 1).isLt
  obtain ⟨t, ht⟩ := idx_onto4 ⟨(i 0).val / 5000, by omega⟩
  have ht' : t.val = (i 0).val / 5000 := ht
  obtain ⟨e0, e1, e2, e3, e4, e5⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 10 ≤ (i 1).val ∧ (i 1).val < win4_2.index t (1 : Fin 2) * 10 + 10; omega

/-- After the launch the output array is the whole product of the input arrays as the launch found them. -/
theorem final4 (c : Dev nD) : (dat4 V c).arrAt 2 cfg4.N = Cert.Gcn.lin10 (V c main_v78) (V c main_arg15) :=
  (dat4 V c).arrAt_eq_of_cover 2 _ (fun t _ => flushed4 V c t) (cover4)

end Launch4

end Cert.KernelIdeal.Launches

end
-- ==== Proof.ElementwiseLaunches.lean ====
/-
  The three elementwise launches.

  Each launch walks twenty row blocks of 5000 rows: at point t it stages rows 5000 t .. 5000 t + 4999 of the
  aggregated features and the one-row scale and shift, computes entry * scale[column] + shift[column] (and, in the
  first two layers, the maximum with zero), and writes the block back to the same rows.  The map is entrywise,
  so block t of the output is block t of the whole map, and the twenty blocks cover the array.
-/
import proofs.«129800_j83099027243500_1_alg».proof.Proof.Gen.KernelIdeal.Frame
import proofs.«129800_j83099027243500_1_alg».proof.Proof.KernelSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Elementwise

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- One entry of the map with the maximum: a * s + h against zero. -/
def entryRelu (a s h : EReal) : EReal := max (a * s + h) 0
/-- One entry of the map: a * s + h. -/
def entryAff (a s h : EReal) : EReal := a * s + h

/-! ## Launch 1: the per-column affine map and the maximum with zero, 5000 rows at a time -/

section Launch1
variable (V : (c : Dev nD) → (b : Ref sig .tc) → Buf (Elt Ideal) ((c : Thread nD τ).loc b))

/-- The block's result at an index: the entry times the scale of its column plus the shift of its column, against zero. -/
theorem pay1_apply (x0 : Vec Ideal S5000x128 .f32) (x1 x2 : Vec Ideal S1x128 .f32) (j : S5000x128.Idx) :
    k1_pay1 (F := Ideal) x0 x1 x2 j = max (x0 j * x1 (ix2 (0 : Fin 1) (j 1)) + x2 (ix2 (0 : Fin 1) (j 1))) 0 := by
  obtain ⟨p, q, rfl⟩ : ∃ (p : Fin 5000) (q : Fin 128), j = ix2 p q := ⟨j 0, j 1, eq_ix2 j⟩
  have e : k1_pay1 (F := Ideal) x0 x1 x2 = maximumf (addf (mulf (shapeCast S5000x128 x0 shapeCasts_S5000x128_S5000x128) (broadcastTo S5000x128 (shapeCast S1x128 x1 shapeCasts_S1x128_S1x128) broadcasts_S1x128_S5000x128)) (broadcastTo S5000x128 (shapeCast S1x128 x2 shapeCasts_S1x128_S1x128) broadcasts_S1x128_S5000x128)) (broadcast S5000x128 (Scalar.ofBits .f32 0x00000000#32)) := rfl
  rw [e, shapeCast_self, shapeCast_self, shapeCast_self]
  show max (x0 (ix2 p q) * broadcastTo S5000x128 x1 broadcasts_S1x128_S5000x128 (ix2 p q) + broadcastTo S5000x128 x2 broadcasts_S1x128_S5000x128 (ix2 p q)) (Ideal.ofBits .f32 0x00000000#32) = _
  rw [broadcastTo_1b_ab_apply, broadcastTo_1b_ab_apply, Ideal.ofBits_zero_f32]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem idx_onto1 : ∀ q0 : Fin 20, ∃ t : Fin cfg1.N, t.val = q0.val :=
  (by decide +kernel : ∀ q0 : Fin 20, ∃ t : Fin grid1.N, t.val = q0.val)

/-- What point `t` writes back is block `t` of the whole entrywise map. -/
theorem flushed1 (c : Dev nD) (t : Fin cfg1.N) :
    (dat1 V c).flushed 3 t = ((cfg1.win 3).blk t).view.read (Elt Ideal) (Cert.Gcn.affRelu (V c main_v40) (V c main_v48) (V c main_v49)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts1 t
  funext j
  show k1_pay1 (F := Ideal) (fun y => V c main_v40 (((cfg1.win 0).blk t).view.emb y)) (fun y => V c main_v48 (((cfg1.win 1).blk t).view.emb y)) (fun y => V c main_v49 (((cfg1.win 2).blk t).view.emb y)) j
    = Cert.Gcn.affRelu (V c main_v40) (V c main_v48) (V c main_v49) (((cfg1.win 3).blk t).view.emb j)
  refine (pay1_apply _ _ _ j).trans ?_
  show entryRelu (V c main_v40 (((cfg1.win 0).blk t).view.emb j)) (V c main_v48 (((cfg1.win 1).blk t).view.emb (ix2 (0 : Fin 1) (j 1)))) (V c main_v49 (((cfg1.win 2).blk t).view.emb (ix2 (0 : Fin 1) (j 1))))
    = entryRelu (V c main_v40 (((cfg1.win 3).blk t).view.emb j)) (V c main_v48 (ix2 (0 : Fin 1) ((((cfg1.win 3).blk t).view.emb j) 1))) (V c main_v49 (ix2 (0 : Fin 1) ((((cfg1.win 3).blk t).view.emb j) 1)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 (0 : Fin 1) (j 1)) = ix2 (0 : Fin 1) ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  exact congr (congr (congrArg entryRelu (congrArg _ h0)) (congrArg _ h1)) (congrArg _ h2)

theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- The twenty row blocks cover the array. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have ht' : t.val = (i 0).val / 5000 := ht
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the launch the output array is the whole entrywise map of the input arrays as the launch found them. -/
theorem final1 (c : Dev nD) : (dat1 V c).arrAt 3 cfg1.N = Cert.Gcn.affRelu (V c main_v40) (V c main_v48) (V c main_v49) :=
  (dat1 V c).arrAt_eq_of_cover 3 _ (fun t _ => flushed1 V c t) (cover1)

end Launch1

/-! ## Launch 3: the per-column affine map and the maximum with zero, 5000 rows at a time -/

section Launch3
variable (V : (c : Dev nD) → (b : Ref sig .tc) → Buf (Elt Ideal) ((c : Thread nD τ).loc b))

/-- The block's result at an index: the entry times the scale of its column plus the shift of its column, against zero. -/
theorem pay3_apply (x0 : Vec Ideal S5000x128 .f32) (x1 x2 : Vec Ideal S1x128 .f32) (j : S5000x128.Idx) :
    k3_pay1 (F := Ideal) x0 x1 x2 j = max (x0 j * x1 (ix2 (0 : Fin 1) (j 1)) + x2 (ix2 (0 : Fin 1) (j 1))) 0 := by
  obtain ⟨p, q, rfl⟩ : ∃ (p : Fin 5000) (q : Fin 128), j = ix2 p q := ⟨j 0, j 1, eq_ix2 j⟩
  have e : k3_pay1 (F := Ideal) x0 x1 x2 = maximumf (addf (mulf (shapeCast S5000x128 x0 shapeCasts_S5000x128_S5000x128) (broadcastTo S5000x128 (shapeCast S1x128 x1 shapeCasts_S1x128_S1x128) broadcasts_S1x128_S5000x128)) (broadcastTo S5000x128 (shapeCast S1x128 x2 shapeCasts_S1x128_S1x128) broadcasts_S1x128_S5000x128)) (broadcast S5000x128 (Scalar.ofBits .f32 0x00000000#32)) := rfl
  rw [e, shapeCast_self, shapeCast_self, shapeCast_self]
  show max (x0 (ix2 p q) * broadcastTo S5000x128 x1 broadcasts_S1x128_S5000x128 (ix2 p q) + broadcastTo S5000x128 x2 broadcasts_S1x128_S5000x128 (ix2 p q)) (Ideal.ofBits .f32 0x00000000#32) = _
  rw [broadcastTo_1b_ab_apply, broadcastTo_1b_ab_apply, Ideal.ofBits_zero_f32]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem idx_onto3 : ∀ q0 : Fin 20, ∃ t : Fin cfg3.N, t.val = q0.val :=
  (by decide +kernel : ∀ q0 : Fin 20, ∃ t : Fin grid3.N, t.val = q0.val)

/-- What point `t` writes back is block `t` of the whole entrywise map. -/
theorem flushed3 (c : Dev nD) (t : Fin cfg3.N) :
    (dat3 V c).flushed 3 t = ((cfg3.win 3).blk t).view.read (Elt Ideal) (Cert.Gcn.affRelu (V c main_v68) (V c main_v76) (V c main_v77)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts3 t
  funext j
  show k3_pay1 (F := Ideal) (fun y => V c main_v68 (((cfg3.win 0).blk t).view.emb y)) (fun y => V c main_v76 (((cfg3.win 1).blk t).view.emb y)) (fun y => V c main_v77 (((cfg3.win 2).blk t).view.emb y)) j
    = Cert.Gcn.affRelu (V c main_v68) (V c main_v76) (V c main_v77) (((cfg3.win 3).blk t).view.emb j)
  refine (pay3_apply _ _ _ j).trans ?_
  show entryRelu (V c main_v68 (((cfg3.win 0).blk t).view.emb j)) (V c main_v76 (((cfg3.win 1).blk t).view.emb (ix2 (0 : Fin 1) (j 1)))) (V c main_v77 (((cfg3.win 2).blk t).view.emb (ix2 (0 : Fin 1) (j 1))))
    = entryRelu (V c main_v68 (((cfg3.win 3).blk t).view.emb j)) (V c main_v76 (ix2 (0 : Fin 1) ((((cfg3.win 3).blk t).view.emb j) 1))) (V c main_v77 (ix2 (0 : Fin 1) ((((cfg3.win 3).blk t).view.emb j) 1)))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (ix2 (0 : Fin 1) (j 1)) = ix2 (0 : Fin 1) ((((cfg3.win 3).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : ((cfg3.win 2).blk t).view.emb (ix2 (0 : Fin 1) (j 1)) = ix2 (0 : Fin 1) ((((cfg3.win 3).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  exact congr (congr (congrArg entryRelu (congrArg _ h0)) (congrArg _ h1)) (congrArg _ h2)

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v78).slice (win3_3.rect t)).set ↔ _
  rw [View.set_slice_whole, Rect.mem_set_unit]
  exact Iff.rfl

/-- The twenty row blocks cover the array. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 5000, by omega⟩
  have ht' : t.val = (i 0).val / 5000 := ht
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the launch the output array is the whole entrywise map of the input arrays as the launch found them. -/
theorem final3 (c : Dev nD) : (dat3 V c).arrAt 3 cfg3.N = Cert.Gcn.affRelu (V c main_v68) (V c main_v76) (V c main_v77) :=
  (dat3 V c).arrAt_eq_of_cover 3 _ (fun t _ => flushed3 V c t) (cover3)

end Launch3

/-! ## Launch 5: the per-column affine map, 5000 rows at a time -/

section Launch5
variable (V : (c : Dev nD) → (b : Ref sig .tc) → Buf (Elt Ideal) ((c : Thread nD τ).loc b))

/-- The block's result at an index: the entry times the scale of its column plus the shift of its column. -/
theorem pay5_apply (x0 : Vec Ideal S5000x10 .f32) (x1 x2 : Vec Ideal S1x10 .f32) (j : S5000x10.Idx) :
    k5_pay1 (F := Ideal) x0 x1 x2 j = x0 j * x1 (ix2 (0 : Fin 1) (j 1)) + x2 (ix2 (0 : Fin 1) (j 1)) := by
  obtain ⟨p, q, rfl⟩ : ∃ (p : Fin 5000) (q : Fin 10), j = ix2 p q := ⟨j 0, j 1, eq_ix2 j⟩
  have e : k5_pay1 (F := Ideal) x0 x1 x2 = addf (mulf (shapeCast S5000x10 x0 shapeCasts_S5000x10_S5000x10) (broadcastTo S5000x10 (shapeCast S1x10 x1 shapeCasts_S1x10_S1x10) broadcasts_S1x10_S5000x10)) (broadcastTo S5000x10 (shapeCast S1x10 x2 shapeCasts_S1x10_S1x10) broadcasts_S1x10_S5000x10) := rfl
  rw [e, shapeCast_self, shapeCast_self, shapeCast_self]
  show x0 (ix2 p q) * broadcastTo S5000x10 x1 broadcasts_S1x10_S5000x10 (ix2 p q) + broadcastTo S5000x10 x2 broadcasts_S1x10_S5000x10 (ix2 p q) = _
  rw [broadcastTo_1b_ab_apply, broadcastTo_1b_ab_apply]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem idx_onto5 : ∀ q0 : Fin 20, ∃ t : Fin cfg5.N, t.val = q0.val :=
  (by decide +kernel : ∀ q0 : Fin 20, ∃ t : Fin grid5.N, t.val = q0.val)

/-- What point `t` writes back is block `t` of the whole entrywise map. -/
theorem flushed5 (c : Dev nD) (t : Fin cfg5.N) :
    (dat5 V c).flushed 3 t = ((cfg5.win 3).blk t).view.read (Elt Ideal) (Cert.Gcn.aff10 (V c main_v96) (V c main_v98) (V c main_v99)) := by
  show (cfg5.win 3).cut (grid5.coords t) ((dat5 V c).after 3 t) = _
  rw [after5_3]
  unfold out5_3
  rw [View.canon_unit_zero hz]
  simp only [View.ld_unit_zero (S := S5000x10) hz, View.ld_unit_zero (S := S1x10) hz]
  obtain ⟨e0, e1, e2, e3, e4, e5, e6, e7⟩ := idx_facts5 t
  funext j
  show k5_pay1 (F := Ideal) (fun y => V c main_v96 (((cfg5.win 0).blk t).view.emb y)) (fun y => V c main_v98 (((cfg5.win 1).blk t).view.emb y)) (fun y => V c main_v99 (((cfg5.win 2).blk t).view.emb y)) j
    = Cert.Gcn.aff10 (V c main_v96) (V c main_v98) (V c main_v99) (((cfg5.win 3).blk t).view.emb j)
  refine (pay5_apply _ _ _ j).trans ?_
  show entryAff (V c main_v96 (((cfg5.win 0).blk t).view.emb j)) (V c main_v98 (((cfg5.win 1).blk t).view.emb (ix2 (0 : Fin 1) (j 1)))) (V c main_v99 (((cfg5.win 2).blk t).view.emb (ix2 (0 : Fin 1) (j 1))))
    = entryAff (V c main_v96 (((cfg5.win 3).blk t).view.emb j)) (V c main_v98 (ix2 (0 : Fin 1) ((((cfg5.win 3).blk t).view.emb j) 1))) (V c main_v99 (ix2 (0 : Fin 1) ((((cfg5.win 3).blk t).view.emb j) 1)))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 10 + 1 * (j 1).val = win5_3.index t (1 : Fin 2) * 10 + 1 * (j 1).val; omega
  have h1 : ((cfg5.win 1).blk t).view.emb (ix2 (0 : Fin 1) (j 1)) = ix2 (0 : Fin 1) ((((cfg5.win 3).blk t).view.emb j) 1) := by
    funext a; apply Fin.ext
    match a with
    | ⟨0, _⟩ => show win5_1.index t (0 : Fin 2) * 1 + 1 * 0 = 0; omega
    | ⟨1, _⟩ => show win5_1.index t (1 : Fin 2) * 10 + 1 * (j 1).val = win5_3.index t (1 : Fin 2) * 10 + 1 * (j 1).val; omega
  have h2 : ((cfg5.win 2).blk t).view.emb (ix2 (0 : Fin 1) (j 1)) = ix2 (0 : Fin 1) ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 10 + 1 * (j 1).val = win5_3.index t (1 : Fin 2) * 10 + 1 * (j 1).val; omega
  exact congr (congr (congrArg entryAff (congrArg _ h0)) (congrArg _ h1)) (congrArg _ h2)

theorem mem_blk5 (t : Fin cfg5.N) (i : S100000x10.Idx) :
    i ∈ ((cfg5.win 3).blk t).view.set ↔ ∀ a : Fin 2, win5_3.index t a * S5000x10.size a ≤ (i a).val ∧ (i a).val < win5_3.index t a * S5000x10.size a + S5000x10.size a := by
  show i ∈ ((View.whole main_v100).slice (win5_3.rect t)).set ↔ _
  rw [View.set_slice_whole, Rect.mem_set_unit]
  exact Iff.rfl

/-- The twenty row blocks cover the array. -/
theorem cover5 (i : S100000x10.Idx) : ∃ t : Fin cfg5.N, (cfg5.win 3).flush t = true ∧ i ∈ ((cfg5.win 3).blk t).view.set := by
  have hi0 : (i 0).val < 100000 := (i 0).isLt
  have hi1 : (i 1).val < 10 := (i 1).isLt
  obtain ⟨t, ht⟩ := idx_onto5 ⟨(i 0).val / 5000, by omega⟩
  have ht' : t.val = (i 0).val / 5000 := ht
  obtain ⟨e0, e1, e2, e3, e4, e5, e6, e7⟩ := idx_facts5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 10 ≤ (i 1).val ∧ (i 1).val < win5_3.index t (1 : Fin 2) * 10 + 10; omega

/-- After the launch the output array is the whole entrywise map of the input arrays as the launch found them. -/
theorem final5 (c : Dev nD) : (dat5 V c).arrAt 3 cfg5.N = Cert.Gcn.aff10 (V c main_v96) (V c main_v98) (V c main_v99) :=
  (dat5 V c).arrAt_eq_of_cover 3 _ (fun t _ => flushed5 V c t) (cover5)

end Launch5

end Cert.KernelIdeal.Elementwise

end
-- ==== Proof.StageA.lean ====
/-
  The kernel program's buffers after its first host stretch and its first launch.

  The fold of the buffer contents through the program is read one segment at a time: a buffer a segment does not
  write keeps its contents, a buffer a host stretch writes holds the stretch's operations of what they read, and
  a launch's output array holds the launch's whole-array function of its input arrays.
-/
import proofs.«129800_j83099027243500_1_alg».proof.Proof.Gen.KernelIdeal.Frame
import proofs.«129800_j83099027243500_1_alg».proof.Proof.KernelSpec
import proofs.«129800_j83099027243500_1_alg».proof.Proof.LinearLaunches
import proofs.«129800_j83099027243500_1_alg».proof.Proof.ElementwiseLaunches
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes holds after the stretch what it held before. -/
macro "skip_host" : tactic => `(tactic| exact StableHlo.after_of_forall_not_mem _ _ (List.forall_iff_forall_mem.mp (by
  simp only [hostOps0, hostOps1, hostOps3, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The facts that a 128-vector recasts to a 1x128 row and a 10-vector to a 1x10 row. -/
theorem hc128 : Cert.ReferenceIdeal.S128.ShapeCasts Cert.ReferenceIdeal.S1x128 := Facts₀.shapeCasts_S128_S1x128
theorem hc10 : Cert.ReferenceIdeal.S10.ShapeCasts Cert.ReferenceIdeal.S1x10 := Facts₀.shapeCasts_S10_S1x10
theorem hb10 : Cert.ReferenceIdeal.S_.BroadcastsInDim Cert.ReferenceIdeal.S10 (![] : Fin Cert.ReferenceIdeal.S_.rank → Fin Cert.ReferenceIdeal.S10.rank) := Facts₀.bcast_S_S10

/-! The intermediate arrays of the kernel program, as functions of the launch contents of the arguments. -/
def cfV (c : Dev nD) := Cert.Gcn.coef (m ((c : Thread nD τ).loc main_arg1)) (m ((c : Thread nD τ).loc main_arg2))
def swV (c : Dev nD) := Cert.Gcn.selfw (m ((c : Thread nD τ).loc main_arg2))
def P1 (c : Dev nD) := Cert.Gcn.lin128 (m ((c : Thread nD τ).loc main_arg0)) (m ((c : Thread nD τ).loc main_arg3))
def G1 (c : Dev nD) := Cert.Gcn.agg128 (P1 m c) (cfV m c) (swV m c) (m ((c : Thread nD τ).loc main_arg1)) (m ((c : Thread nD τ).loc main_arg2))
def SC1 (c : Dev nD) := Cert.Gcn.scaleRow hc128 (m ((c : Thread nD τ).loc main_arg5)) (m ((c : Thread nD τ).loc main_arg8))
def SH1 (c : Dev nD) := Cert.Gcn.shiftRow hc128 (m ((c : Thread nD τ).loc main_arg4)) (m ((c : Thread nD τ).loc main_arg7)) (m ((c : Thread nD τ).loc main_arg5)) (m ((c : Thread nD τ).loc main_arg8)) (m ((c : Thread nD τ).loc main_arg6))
def H1 (c : Dev nD) := Cert.Gcn.affRelu (G1 m c) (SC1 m c) (SH1 m c)
def P2 (c : Dev nD) := Cert.Gcn.lin128 (H1 m c) (m ((c : Thread nD τ).loc main_arg9))
def G2 (c : Dev nD) := Cert.Gcn.agg128 (P2 m c) (cfV m c) (swV m c) (m ((c : Thread nD τ).loc main_arg1)) (m ((c : Thread nD τ).loc main_arg2))
def SC2 (c : Dev nD) := Cert.Gcn.scaleRow hc128 (m ((c : Thread nD τ).loc main_arg11)) (m ((c : Thread nD τ).loc main_arg14))
def SH2 (c : Dev nD) := Cert.Gcn.shiftRow hc128 (m ((c : Thread nD τ).loc main_arg10)) (m ((c : Thread nD τ).loc main_arg13)) (m ((c : Thread nD τ).loc main_arg11)) (m ((c : Thread nD τ).loc main_arg14)) (m ((c : Thread nD τ).loc main_arg12))
def H2 (c : Dev nD) := Cert.Gcn.affRelu (G2 m c) (SC2 m c) (SH2 m c)
def P3 (c : Dev nD) := Cert.Gcn.lin10 (H2 m c) (m ((c : Thread nD τ).loc main_arg15))
def G3 (c : Dev nD) := Cert.Gcn.agg10 (P3 m c) (cfV m c) (swV m c) (m ((c : Thread nD τ).loc main_arg1)) (m ((c : Thread nD τ).loc main_arg2))
def OUT (c : Dev nD) := Cert.Gcn.aff10 (G3 m c) (Cert.Gcn.onesRow hb10 hc10) (Cert.Gcn.biasRow hc10 (m ((c : Thread nD τ).loc main_arg16)))

/-! ## After the first host stretch: the edge weights and the node weights are computed; the arguments are untouched -/
theorem W1_arg0 (c : Dev nD) : W1 m ρ c (Proc.devRef .tc main_arg0) = (m ((c : Thread nD τ).loc main_arg0)) := (by skip_host : W1 m ρ c (Proc.devRef .tc main_arg0) = W0 m ρ c (Proc.devRef .tc main_arg0)).trans rfl
theorem W1_arg1 (c : Dev nD) : W1 m ρ c (Proc.devRef .tc main_arg1) = (m ((c : Thread nD τ).loc main_arg1)) := (by skip_host : W1 m ρ c (Proc.devRef .tc main_arg1) = W0 m ρ c (Proc.devRef .tc main_arg1)).trans rfl
theorem W1_arg2 (c : Dev nD) : W1 m ρ c (Proc.devRef .tc main_arg2) = (m ((c : Thread nD τ).loc main_arg2)) := (by skip_host : W1 m ρ c (Proc.devRef .tc main_arg2) = W0 m ρ c (Proc.devRef .tc main_arg2)).trans rfl
theorem W1_arg3 (c : Dev nD) : W1 m ρ c (Proc.devRef .tc main_arg3) = (m ((c : Thread nD τ).loc main_arg3)) := (by skip_host : W1 m ρ c (Proc.devRef .tc main_arg3) = W0 m ρ c (Proc.devRef .tc main_arg3)).trans rfl
theorem W1_arg4 (c : Dev nD) : W1 m ρ c (Proc.devRef .tc main_arg4) = (m ((c : Thread nD τ).loc main_arg4)) := (by skip_host : W1 m ρ c (Proc.devRef .tc main_arg4) = W0 m ρ c (Proc.devRef .tc main_arg4)).trans rfl
theorem W1_arg5 (c : Dev nD) : W1 m ρ c (Proc.devRef .tc main_arg5) = (m ((c : Thread nD τ).loc main_arg5)) := (by skip_host : W1 m ρ c (Proc.devRef .tc main_arg5) = W0 m ρ c (Proc.devRef .tc main_arg5)).trans rfl
theorem W1_arg6 (c : Dev nD) : W1 m ρ c (Proc.devRef .tc main_arg6) = (m ((c : Thread nD τ).loc main_arg6)) := (by skip_host : W1 m ρ c (Proc.devRef .tc main_arg6) = W0 m ρ c (Proc.devRef .tc main_arg6)).trans rfl
theorem W1_arg7 (c : Dev nD) : W1 m ρ c (Proc.devRef .tc main_arg7) = (m ((c : Thread nD τ).loc main_arg7)) := (by skip_host : W1 m ρ c (Proc.devRef .tc main_arg7) = W0 m ρ c (Proc.devRef .tc main_arg7)).trans rfl
theorem W1_arg8 (c : Dev nD) : W1 m ρ c (Proc.devRef .tc main_arg8) = (m ((c : Thread nD τ).loc main_arg8)) := (by skip_host : W1 m ρ c (Proc.devRef .tc main_arg8) = W0 m ρ c (Proc.devRef .tc main_arg8)).trans rfl
theorem W1_arg9 (c : Dev nD) : W1 m ρ c (Proc.devRef .tc main_arg9) = (m ((c : Thread nD τ).loc main_arg9)) := (by skip_host : W1 m ρ c (Proc.devRef .tc main_arg9) = W0 m ρ c (Proc.devRef .tc main_arg9)).trans rfl
theorem W1_arg10 (c : Dev nD) : W1 m ρ c (Proc.devRef .tc main_arg10) = (m ((c : Thread nD τ).loc main_arg10)) := (by skip_host : W1 m ρ c (Proc.devRef .tc main_arg10) = W0 m ρ c (Proc.devRef .tc main_arg10)).trans rfl
theorem W1_arg11 (c : Dev nD) : W1 m ρ c (Proc.devRef .tc main_arg11) = (m ((c : Thread nD τ).loc main_arg11)) := (by skip_host : W1 m ρ c (Proc.devRef .tc main_arg11) = W0 m ρ c (Proc.devRef .tc main_arg11)).trans rfl
theorem W1_arg12 (c : Dev nD) : W1 m ρ c (Proc.devRef .tc main_arg12) = (m ((c : Thread nD τ).loc main_arg12)) := (by skip_host : W1 m ρ c (Proc.devRef .tc main_arg12) = W0 m ρ c (Proc.devRef .tc main_arg12)).trans rfl
theorem W1_arg13 (c : Dev nD) : W1 m ρ c (Proc.devRef .tc main_arg13) = (m ((c : Thread nD τ).loc main_arg13)) := (by skip_host : W1 m ρ c (Proc.devRef .tc main_arg13) = W0 m ρ c (Proc.devRef .tc main_arg13)).trans rfl
theorem W1_arg14 (c : Dev nD) : W1 m ρ c (Proc.devRef .tc main_arg14) = (m ((c : Thread nD τ).loc main_arg14)) := (by skip_host : W1 m ρ c (Proc.devRef .tc main_arg14) = W0 m ρ c (Proc.devRef .tc main_arg14)).trans rfl
theorem W1_arg15 (c : Dev nD) : W1 m ρ c (Proc.devRef .tc main_arg15) = (m ((c : Thread nD τ).loc main_arg15)) := (by skip_host : W1 m ρ c (Proc.devRef .tc main_arg15) = W0 m ρ c (Proc.devRef .tc main_arg15)).trans rfl
theorem W1_arg16 (c : Dev nD) : W1 m ρ c (Proc.devRef .tc main_arg16) = (m ((c : Thread nD τ).loc main_arg16)) := (by skip_host : W1 m ρ c (Proc.devRef .tc main_arg16) = W0 m ρ c (Proc.devRef .tc main_arg16)).trans rfl
set_option maxHeartbeats 4000000 in
theorem W1_v21 (c : Dev nD) : W1 m ρ c (Proc.devRef .tc main_v21) = cfV m c := by
  show StableHlo.after hostOps0 (W0 m ρ c) (Proc.devRef .tc main_v21) = _
  after_results_simp
  rfl
set_option maxHeartbeats 4000000 in
theorem W1_v22 (c : Dev nD) : W1 m ρ c (Proc.devRef .tc main_v22) = swV m c := by
  show StableHlo.after hostOps0 (W0 m ρ c) (Proc.devRef .tc main_v22) = _
  after_results_simp
  rfl

/-! ## After the first launch: the first dense product -/
theorem W2_v23 (c : Dev nD) : W2 m ρ c (Proc.devRef .tc main_v23) = P1 m c :=
  (W2_arr m ρ c 2).trans ((Launches.final0 (V1 m ρ) c).trans (congrArg₂ Cert.Gcn.lin128 (W1_arg0 m ρ c) (W1_arg3 m ρ c)))
theorem W2_v21 (c : Dev nD) : W2 m ρ c (Proc.devRef .tc main_v21) = cfV m c := (W2_of_ne m ρ c main_v21 (by decide)).trans (W1_v21 m ρ c)
theorem W2_v22 (c : Dev nD) : W2 m ρ c (Proc.devRef .tc main_v22) = swV m c := (W2_of_ne m ρ c main_v22 (by decide)).trans (W1_v22 m ρ c)
theorem W2_arg1 (c : Dev nD) : W2 m ρ c (Proc.devRef .tc main_arg1) = (m ((c : Thread nD τ).loc main_arg1)) := (W2_of_ne m ρ c main_arg1 (by decide)).trans (W1_arg1 m ρ c)
theorem W2_arg2 (c : Dev nD) : W2 m ρ c (Proc.devRef .tc main_arg2) = (m ((c : Thread nD τ).loc main_arg2)) := (W2_of_ne m ρ c main_arg2 (by decide)).trans (W1_arg2 m ρ c)
theorem W2_arg4 (c : Dev nD) : W2 m ρ c (Proc.devRef .tc main_arg4) = (m ((c : Thread nD τ).loc main_arg4)) := (W2_of_ne m ρ c main_arg4 (by decide)).trans (W1_arg4 m ρ c)
theorem W2_arg5 (c : Dev nD) : W2 m ρ c (Proc.devRef .tc main_arg5) = (m ((c : Thread nD τ).loc main_arg5)) := (W2_of_ne m ρ c main_arg5 (by decide)).trans (W1_arg5 m ρ c)
theorem W2_arg6 (c : Dev nD) : W2 m ρ c (Proc.devRef .tc main_arg6) = (m ((c : Thread nD τ).loc main_arg6)) := (W2_of_ne m ρ c main_arg6 (by decide)).trans (W1_arg6 m ρ c)
theorem W2_arg7 (c : Dev nD) : W2 m ρ c (Proc.devRef .tc main_arg7) = (m ((c : Thread nD τ).loc main_arg7)) := (W2_of_ne m ρ c main_arg7 (by decide)).trans (W1_arg7 m ρ c)
theorem W2_arg8 (c : Dev nD) : W2 m ρ c (Proc.devRef .tc main_arg8) = (m ((c : Thread nD τ).loc main_arg8)) := (W2_of_ne m ρ c main_arg8 (by decide)).trans (W1_arg8 m ρ c)
theorem W2_arg9 (c : Dev nD) : W2 m ρ c (Proc.devRef .tc main_arg9) = (m ((c : Thread nD τ).loc main_arg9)) := (W2_of_ne m ρ c main_arg9 (by decide)).trans (W1_arg9 m ρ c)
theorem W2_arg10 (c : Dev nD) : W2 m ρ c (Proc.devRef .tc main_arg10) = (m ((c : Thread nD τ).loc main_arg10)) := (W2_of_ne m ρ c main_arg10 (by decide)).trans (W1_arg10 m ρ c)
theorem W2_arg11 (c : Dev nD) : W2 m ρ c (Proc.devRef .tc main_arg11) = (m ((c : Thread nD τ).loc main_arg11)) := (W2_of_ne m ρ c main_arg11 (by decide)).trans (W1_arg11 m ρ c)
theorem W2_arg12 (c : Dev nD) : W2 m ρ c (Proc.devRef .tc main_arg12) = (m ((c : Thread nD τ).loc main_arg12)) := (W2_of_ne m ρ c main_arg12 (by decide)).trans (W1_arg12 m ρ c)
theorem W2_arg13 (c : Dev nD) : W2 m ρ c (Proc.devRef .tc main_arg13) = (m ((c : Thread nD τ).loc main_arg13)) := (W2_of_ne m ρ c main_arg13 (by decide)).trans (W1_arg13 m ρ c)
theorem W2_arg14 (c : Dev nD) : W2 m ρ c (Proc.devRef .tc main_arg14) = (m ((c : Thread nD τ).loc main_arg14)) := (W2_of_ne m ρ c main_arg14 (by decide)).trans (W1_arg14 m ρ c)
theorem W2_arg15 (c : Dev nD) : W2 m ρ c (Proc.devRef .tc main_arg15) = (m ((c : Thread nD τ).loc main_arg15)) := (W2_of_ne m ρ c main_arg15 (by decide)).trans (W1_arg15 m ρ c)
theorem W2_arg16 (c : Dev nD) : W2 m ρ c (Proc.devRef .tc main_arg16) = (m ((c : Thread nD τ).loc main_arg16)) := (W2_of_ne m ρ c main_arg16 (by decide)).trans (W1_arg16 m ρ c)

end Cert.KernelIdeal.Stages

end
-- ==== Proof.StageB.lean ====
/-
  The kernel program's buffers through its second host stretch and its second and third launches.
-/
import proofs.«129800_j83099027243500_1_alg».proof.Proof.Gen.KernelIdeal.Frame
import proofs.«129800_j83099027243500_1_alg».proof.Proof.KernelSpec
import proofs.«129800_j83099027243500_1_alg».proof.Proof.LinearLaunches
import proofs.«129800_j83099027243500_1_alg».proof.Proof.ElementwiseLaunches
import Idealize.ShloMosaic.Lib.StableHlo.Run
import proofs.«129800_j83099027243500_1_alg».proof.Proof.StageA

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the second host stretch: the first neighbourhood sum, and the first layer's scale and shift rows -/
set_option maxHeartbeats 4000000 in
theorem W3_v40 (c : Dev nD) : W3 m ρ c (Proc.devRef .tc main_v40) = G1 m c := by
  show StableHlo.after hostOps1 (W2 m ρ c) (Proc.devRef .tc main_v40) = _
  after_results_simp
  rw [W2_v23 m ρ c, W2_v21 m ρ c, W2_v22 m ρ c, W2_arg1 m ρ c, W2_arg2 m ρ c]
  rfl
set_option maxHeartbeats 4000000 in
theorem W3_v48 (c : Dev nD) : W3 m ρ c (Proc.devRef .tc main_v48) = SC1 m c := by
  show StableHlo.after hostOps1 (W2 m ρ c) (Proc.devRef .tc main_v48) = _
  after_results_simp
  rw [W2_arg5 m ρ c, W2_arg8 m ρ c]
  rfl
set_option maxHeartbeats 4000000 in
theorem W3_v49 (c : Dev nD) : W3 m ρ c (Proc.devRef .tc main_v49) = SH1 m c := by
  show StableHlo.after hostOps1 (W2 m ρ c) (Proc.devRef .tc main_v49) = _
  after_results_simp
  rw [W2_arg4 m ρ c, W2_arg7 m ρ c, W2_arg5 m ρ c, W2_arg8 m ρ c, W2_arg6 m ρ c]
  rfl
theorem W3_v21 (c : Dev nD) : W3 m ρ c (Proc.devRef .tc main_v21) = cfV m c := (by skip_host : W3 m ρ c (Proc.devRef .tc main_v21) = W2 m ρ c (Proc.devRef .tc main_v21)).trans (W2_v21 m ρ c)
theorem W3_v22 (c : Dev nD) : W3 m ρ c (Proc.devRef .tc main_v22) = swV m c := (by skip_host : W3 m ρ c (Proc.devRef .tc main_v22) = W2 m ρ c (Proc.devRef .tc main_v22)).trans (W2_v22 m ρ c)
theorem W3_arg1 (c : Dev nD) : W3 m ρ c (Proc.devRef .tc main_arg1) = (m ((c : Thread nD τ).loc main_arg1)) := (by skip_host : W3 m ρ c (Proc.devRef .tc main_arg1) = W2 m ρ c (Proc.devRef .tc main_arg1)).trans (W2_arg1 m ρ c)
theorem W3_arg2 (c : Dev nD) : W3 m ρ c (Proc.devRef .tc main_arg2) = (m ((c : Thread nD τ).loc main_arg2)) := (by skip_host : W3 m ρ c (Proc.devRef .tc main_arg2) = W2 m ρ c (Proc.devRef .tc main_arg2)).trans (W2_arg2 m ρ c)
theorem W3_arg9 (c : Dev nD) : W3 m ρ c (Proc.devRef .tc main_arg9) = (m ((c : Thread nD τ).loc main_arg9)) := (by skip_host : W3 m ρ c (Proc.devRef .tc main_arg9) = W2 m ρ c (Proc.devRef .tc main_arg9)).trans (W2_arg9 m ρ c)
theorem W3_arg10 (c : Dev nD) : W3 m ρ c (Proc.devRef .tc main_arg10) = (m ((c : Thread nD τ).loc main_arg10)) := (by skip_host : W3 m ρ c (Proc.devRef .tc main_arg10) = W2 m ρ c (Proc.devRef .tc main_arg10)).trans (W2_arg10 m ρ c)
theorem W3_arg11 (c : Dev nD) : W3 m ρ c (Proc.devRef .tc main_arg11) = (m ((c : Thread nD τ).loc main_arg11)) := (by skip_host : W3 m ρ c (Proc.devRef .tc main_arg11) = W2 m ρ c (Proc.devRef .tc main_arg11)).trans (W2_arg11 m ρ c)
theorem W3_arg12 (c : Dev nD) : W3 m ρ c (Proc.devRef .tc main_arg12) = (m ((c : Thread nD τ).loc main_arg12)) := (by skip_host : W3 m ρ c (Proc.devRef .tc main_arg12) = W2 m ρ c (Proc.devRef .tc main_arg12)).trans (W2_arg12 m ρ c)
theorem W3_arg13 (c : Dev nD) : W3 m ρ c (Proc.devRef .tc main_arg13) = (m ((c : Thread nD τ).loc main_arg13)) := (by skip_host : W3 m ρ c (Proc.devRef .tc main_arg13) = W2 m ρ c (Proc.devRef .tc main_arg13)).trans (W2_arg13 m ρ c)
theorem W3_arg14 (c : Dev nD) : W3 m ρ c (Proc.devRef .tc main_arg14) = (m ((c : Thread nD τ).loc main_arg14)) := (by skip_host : W3 m ρ c (Proc.devRef .tc main_arg14) = W2 m ρ c (Proc.devRef .tc main_arg14)).trans (W2_arg14 m ρ c)
theorem W3_arg15 (c : Dev nD) : W3 m ρ c (Proc.devRef .tc main_arg15) = (m ((c : Thread nD τ).loc main_arg15)) := (by skip_host : W3 m ρ c (Proc.devRef .tc main_arg15) = W2 m ρ c (Proc.devRef .tc main_arg15)).trans (W2_arg15 m ρ c)
theorem W3_arg16 (c : Dev nD) : W3 m ρ c (Proc.devRef .tc main_arg16) = (m ((c : Thread nD τ).loc main_arg16)) := (by skip_host : W3 m ρ c (Proc.devRef .tc main_arg16) = W2 m ρ c (Proc.devRef .tc main_arg16)).trans (W2_arg16 m ρ c)

/-! ## After the second launch: the first layer's output -/
theorem W4_v50 (c : Dev nD) : W4 m ρ c (Proc.devRef .tc main_v50) = H1 m c := by
  refine (W4_arr m ρ c 3).trans ((Elementwise.final1 (V3 m ρ) c).trans ?_)
  show Cert.Gcn.affRelu (W3 m ρ c (Proc.devRef .tc main_v40)) (W3 m ρ c (Proc.devRef .tc main_v48)) (W3 m ρ c (Proc.devRef .tc main_v49)) = _
  rw [W3_v40 m ρ c, W3_v48 m ρ c, W3_v49 m ρ c]
  rfl
theorem W4_v21 (c : Dev nD) : W4 m ρ c (Proc.devRef .tc main_v21) = cfV m c := (W4_of_ne m ρ c main_v21 (by decide)).trans (W3_v21 m ρ c)
theorem W4_v22 (c : Dev nD) : W4 m ρ c (Proc.devRef .tc main_v22) = swV m c := (W4_of_ne m ρ c main_v22 (by decide)).trans (W3_v22 m ρ c)
theorem W4_arg1 (c : Dev nD) : W4 m ρ c (Proc.devRef .tc main_arg1) = (m ((c : Thread nD τ).loc main_arg1)) := (W4_of_ne m ρ c main_arg1 (by decide)).trans (W3_arg1 m ρ c)
theorem W4_arg2 (c : Dev nD) : W4 m ρ c (Proc.devRef .tc main_arg2) = (m ((c : Thread nD τ).loc main_arg2)) := (W4_of_ne m ρ c main_arg2 (by decide)).trans (W3_arg2 m ρ c)
theorem W4_arg9 (c : Dev nD) : W4 m ρ c (Proc.devRef .tc main_arg9) = (m ((c : Thread nD τ).loc main_arg9)) := (W4_of_ne m ρ c main_arg9 (by decide)).trans (W3_arg9 m ρ c)
theorem W4_arg10 (c : Dev nD) : W4 m ρ c (Proc.devRef .tc main_arg10) = (m ((c : Thread nD τ).loc main_arg10)) := (W4_of_ne m ρ c main_arg10 (by decide)).trans (W3_arg10 m ρ c)
theorem W4_arg11 (c : Dev nD) : W4 m ρ c (Proc.devRef .tc main_arg11) = (m ((c : Thread nD τ).loc main_arg11)) := (W4_of_ne m ρ c main_arg11 (by decide)).trans (W3_arg11 m ρ c)
theorem W4_arg12 (c : Dev nD) : W4 m ρ c (Proc.devRef .tc main_arg12) = (m ((c : Thread nD τ).loc main_arg12)) := (W4_of_ne m ρ c main_arg12 (by decide)).trans (W3_arg12 m ρ c)
theorem W4_arg13 (c : Dev nD) : W4 m ρ c (Proc.devRef .tc main_arg13) = (m ((c : Thread nD τ).loc main_arg13)) := (W4_of_ne m ρ c main_arg13 (by decide)).trans (W3_arg13 m ρ c)
theorem W4_arg14 (c : Dev nD) : W4 m ρ c (Proc.devRef .tc main_arg14) = (m ((c : Thread nD τ).loc main_arg14)) := (W4_of_ne m ρ c main_arg14 (by decide)).trans (W3_arg14 m ρ c)
theorem W4_arg15 (c : Dev nD) : W4 m ρ c (Proc.devRef .tc main_arg15) = (m ((c : Thread nD τ).loc main_arg15)) := (W4_of_ne m ρ c main_arg15 (by decide)).trans (W3_arg15 m ρ c)
theorem W4_arg16 (c : Dev nD) : W4 m ρ c (Proc.devRef .tc main_arg16) = (m ((c : Thread nD τ).loc main_arg16)) := (W4_of_ne m ρ c main_arg16 (by decide)).trans (W3_arg16 m ρ c)

/-! ## After the third launch: the second dense product -/
theorem W5_v51 (c : Dev nD) : W5 m ρ c (Proc.devRef .tc main_v51) = P2 m c :=
  (W5_arr m ρ c 2).trans ((Launches.final2 (V4 m ρ) c).trans (congrArg₂ Cert.Gcn.lin128 (W4_v50 m ρ c) (W4_arg9 m ρ c)))
theorem W5_v21 (c : Dev nD) : W5 m ρ c (Proc.devRef .tc main_v21) = cfV m c := (W5_of_ne m ρ c main_v21 (by decide)).trans (W4_v21 m ρ c)
theorem W5_v22 (c : Dev nD) : W5 m ρ c (Proc.devRef .tc main_v22) = swV m c := (W5_of_ne m ρ c main_v22 (by decide)).trans (W4_v22 m ρ c)
theorem W5_arg1 (c : Dev nD) : W5 m ρ c (Proc.devRef .tc main_arg1) = (m ((c : Thread nD τ).loc main_arg1)) := (W5_of_ne m ρ c main_arg1 (by decide)).trans (W4_arg1 m ρ c)
theorem W5_arg2 (c : Dev nD) : W5 m ρ c (Proc.devRef .tc main_arg2) = (m ((c : Thread nD τ).loc main_arg2)) := (W5_of_ne m ρ c main_arg2 (by decide)).trans (W4_arg2 m ρ c)
theorem W5_arg10 (c : Dev nD) : W5 m ρ c (Proc.devRef .tc main_arg10) = (m ((c : Thread nD τ).loc main_arg10)) := (W5_of_ne m ρ c main_arg10 (by decide)).trans (W4_arg10 m ρ c)
theorem W5_arg11 (c : Dev nD) : W5 m ρ c (Proc.devRef .tc main_arg11) = (m ((c : Thread nD τ).loc main_arg11)) := (W5_of_ne m ρ c main_arg11 (by decide)).trans (W4_arg11 m ρ c)
theorem W5_arg12 (c : Dev nD) : W5 m ρ c (Proc.devRef .tc main_arg12) = (m ((c : Thread nD τ).loc main_arg12)) := (W5_of_ne m ρ c main_arg12 (by decide)).trans (W4_arg12 m ρ c)
theorem W5_arg13 (c : Dev nD) : W5 m ρ c (Proc.devRef .tc main_arg13) = (m ((c : Thread nD τ).loc main_arg13)) := (W5_of_ne m ρ c main_arg13 (by decide)).trans (W4_arg13 m ρ c)
theorem W5_arg14 (c : Dev nD) : W5 m ρ c (Proc.devRef .tc main_arg14) = (m ((c : Thread nD τ).loc main_arg14)) := (W5_of_ne m ρ c main_arg14 (by decide)).trans (W4_arg14 m ρ c)
theorem W5_arg15 (c : Dev nD) : W5 m ρ c (Proc.devRef .tc main_arg15) = (m ((c : Thread nD τ).loc main_arg15)) := (W5_of_ne m ρ c main_arg15 (by decide)).trans (W4_arg15 m ρ c)
theorem W5_arg16 (c : Dev nD) : W5 m ρ c (Proc.devRef .tc main_arg16) = (m ((c : Thread nD τ).loc main_arg16)) := (W5_of_ne m ρ c main_arg16 (by decide)).trans (W4_arg16 m ρ c)

end Cert.KernelIdeal.Stages

end
-- ==== Proof.StageC.lean ====
/-
  The kernel program's buffers through its last two host stretches and its last three launches: the result.
-/
import proofs.«129800_j83099027243500_1_alg».proof.Proof.Gen.KernelIdeal.Frame
import proofs.«129800_j83099027243500_1_alg».proof.Proof.KernelSpec
import proofs.«129800_j83099027243500_1_alg».proof.Proof.LinearLaunches
import proofs.«129800_j83099027243500_1_alg».proof.Proof.ElementwiseLaunches
import Idealize.ShloMosaic.Lib.StableHlo.Run
import proofs.«129800_j83099027243500_1_alg».proof.Proof.StageB

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the third host stretch: the second neighbourhood sum, and the second layer's scale and shift rows -/
set_option maxHeartbeats 4000000 in
theorem W6_v68 (c : Dev nD) : W6 m ρ c (Proc.devRef .tc main_v68) = G2 m c := by
  show StableHlo.after hostOps3 (W5 m ρ c) (Proc.devRef .tc main_v68) = _
  after_results_simp
  rw [W5_v51 m ρ c, W5_v21 m ρ c, W5_v22 m ρ c, W5_arg1 m ρ c, W5_arg2 m ρ c]
  rfl
set_option maxHeartbeats 4000000 in
theorem W6_v76 (c : Dev nD) : W6 m ρ c (Proc.devRef .tc main_v76) = SC2 m c := by
  show StableHlo.after hostOps3 (W5 m ρ c) (Proc.devRef .tc main_v76) = _
  after_results_simp
  rw [W5_arg11 m ρ c, W5_arg14 m ρ c]
  rfl
set_option maxHeartbeats 4000000 in
theorem W6_v77 (c : Dev nD) : W6 m ρ c (Proc.devRef .tc main_v77) = SH2 m c := by
  show StableHlo.after hostOps3 (W5 m ρ c) (Proc.devRef .tc main_v77) = _
  after_results_simp
  rw [W5_arg10 m ρ c, W5_arg13 m ρ c, W5_arg11 m ρ c, W5_arg14 m ρ c, W5_arg12 m ρ c]
  rfl
theorem W6_v21 (c : Dev nD) : W6 m ρ c (Proc.devRef .tc main_v21) = cfV m c := (by skip_host : W6 m ρ c (Proc.devRef .tc main_v21) = W5 m ρ c (Proc.devRef .tc main_v21)).trans (W5_v21 m ρ c)
theorem W6_v22 (c : Dev nD) : W6 m ρ c (Proc.devRef .tc main_v22) = swV m c := (by skip_host : W6 m ρ c (Proc.devRef .tc main_v22) = W5 m ρ c (Proc.devRef .tc main_v22)).trans (W5_v22 m ρ c)
theorem W6_arg1 (c : Dev nD) : W6 m ρ c (Proc.devRef .tc main_arg1) = (m ((c : Thread nD τ).loc main_arg1)) := (by skip_host : W6 m ρ c (Proc.devRef .tc main_arg1) = W5 m ρ c (Proc.devRef .tc main_arg1)).trans (W5_arg1 m ρ c)
theorem W6_arg2 (c : Dev nD) : W6 m ρ c (Proc.devRef .tc main_arg2) = (m ((c : Thread nD τ).loc main_arg2)) := (by skip_host : W6 m ρ c (Proc.devRef .tc main_arg2) = W5 m ρ c (Proc.devRef .tc main_arg2)).trans (W5_arg2 m ρ c)
theorem W6_arg15 (c : Dev nD) : W6 m ρ c (Proc.devRef .tc main_arg15) = (m ((c : Thread nD τ).loc main_arg15)) := (by skip_host : W6 m ρ c (Proc.devRef .tc main_arg15) = W5 m ρ c (Proc.devRef .tc main_arg15)).trans (W5_arg15 m ρ c)
theorem W6_arg16 (c : Dev nD) : W6 m ρ c (Proc.devRef .tc main_arg16) = (m ((c : Thread nD τ).loc main_arg16)) := (by skip_host : W6 m ρ c (Proc.devRef .tc main_arg16) = W5 m ρ c (Proc.devRef .tc main_arg16)).trans (W5_arg16 m ρ c)

/-! ## After the fourth launch: the second layer's output -/
theorem W7_v78 (c : Dev nD) : W7 m ρ c (Proc.devRef .tc main_v78) = H2 m c := by
  refine (W7_arr m ρ c 3).trans ((Elementwise.final3 (V6 m ρ) c).trans ?_)
  show Cert.Gcn.affRelu (W6 m ρ c (Proc.devRef .tc main_v68)) (W6 m ρ c (Proc.devRef .tc main_v76)) (W6 m ρ c (Proc.devRef .tc main_v77)) = _
  rw [W6_v68 m ρ c, W6_v76 m ρ c, W6_v77 m ρ c]
  rfl
theorem W7_v21 (c : Dev nD) : W7 m ρ c (Proc.devRef .tc main_v21) = cfV m c := (W7_of_ne m ρ c main_v21 (by decide)).trans (W6_v21 m ρ c)
theorem W7_v22 (c : Dev nD) : W7 m ρ c (Proc.devRef .tc main_v22) = swV m c := (W7_of_ne m ρ c main_v22 (by decide)).trans (W6_v22 m ρ c)
theorem W7_arg1 (c : Dev nD) : W7 m ρ c (Proc.devRef .tc main_arg1) = (m ((c : Thread nD τ).loc main_arg1)) := (W7_of_ne m ρ c main_arg1 (by decide)).trans (W6_arg1 m ρ c)
theorem W7_arg2 (c : Dev nD) : W7 m ρ c (Proc.devRef .tc main_arg2) = (m ((c : Thread nD τ).loc main_arg2)) := (W7_of_ne m ρ c main_arg2 (by decide)).trans (W6_arg2 m ρ c)
theorem W7_arg15 (c : Dev nD) : W7 m ρ c (Proc.devRef .tc main_arg15) = (m ((c : Thread nD τ).loc main_arg15)) := (W7_of_ne m ρ c main_arg15 (by decide)).trans (W6_arg15 m ρ c)
theorem W7_arg16 (c : Dev nD) : W7 m ρ c (Proc.devRef .tc main_arg16) = (m ((c : Thread nD τ).loc main_arg16)) := (W7_of_ne m ρ c main_arg16 (by decide)).trans (W6_arg16 m ρ c)

/-! ## After the fifth launch: the third dense product -/
theorem W8_v79 (c : Dev nD) : W8 m ρ c (Proc.devRef .tc main_v79) = P3 m c :=
  (W8_arr m ρ c 2).trans ((Launches.final4 (V7 m ρ) c).trans (congrArg₂ Cert.Gcn.lin10 (W7_v78 m ρ c) (W7_arg15 m ρ c)))
theorem W8_v21 (c : Dev nD) : W8 m ρ c (Proc.devRef .tc main_v21) = cfV m c := (W8_of_ne m ρ c main_v21 (by decide)).trans (W7_v21 m ρ c)
theorem W8_v22 (c : Dev nD) : W8 m ρ c (Proc.devRef .tc main_v22) = swV m c := (W8_of_ne m ρ c main_v22 (by decide)).trans (W7_v22 m ρ c)
theorem W8_arg1 (c : Dev nD) : W8 m ρ c (Proc.devRef .tc main_arg1) = (m ((c : Thread nD τ).loc main_arg1)) := (W8_of_ne m ρ c main_arg1 (by decide)).trans (W7_arg1 m ρ c)
theorem W8_arg2 (c : Dev nD) : W8 m ρ c (Proc.devRef .tc main_arg2) = (m ((c : Thread nD τ).loc main_arg2)) := (W8_of_ne m ρ c main_arg2 (by decide)).trans (W7_arg2 m ρ c)
theorem W8_arg16 (c : Dev nD) : W8 m ρ c (Proc.devRef .tc main_arg16) = (m ((c : Thread nD τ).loc main_arg16)) := (W8_of_ne m ρ c main_arg16 (by decide)).trans (W7_arg16 m ρ c)

/-! ## After the last host stretch and the last launch: the result -/
set_option maxHeartbeats 4000000 in
theorem W9_v96 (c : Dev nD) : W9 m ρ c (Proc.devRef .tc main_v96) = G3 m c := by
  show StableHlo.after hostOps5 (W8 m ρ c) (Proc.devRef .tc main_v96) = _
  after_results_simp
  rw [W8_v79 m ρ c, W8_v21 m ρ c, W8_v22 m ρ c, W8_arg1 m ρ c, W8_arg2 m ρ c]
  rfl
set_option maxHeartbeats 4000000 in
theorem W9_v98 (c : Dev nD) : W9 m ρ c (Proc.devRef .tc main_v98) = Cert.Gcn.onesRow hb10 hc10 := by
  show StableHlo.after hostOps5 (W8 m ρ c) (Proc.devRef .tc main_v98) = _
  after_results_simp
  rfl
set_option maxHeartbeats 4000000 in
theorem W9_v99 (c : Dev nD) : W9 m ρ c (Proc.devRef .tc main_v99) = Cert.Gcn.biasRow hc10 (m ((c : Thread nD τ).loc main_arg16)) := by
  show StableHlo.after hostOps5 (W8 m ρ c) (Proc.devRef .tc main_v99) = _
  after_results_simp
  rw [W8_arg16 m ρ c]
  rfl
/-- The result buffer after the whole program. -/
theorem W10_v100 (c : Dev nD) : W10 m ρ c (Proc.devRef .tc main_v100) = OUT m c := by
  refine (W10_arr m ρ c 3).trans ((Elementwise.final5 (V9 m ρ) c).trans ?_)
  show Cert.Gcn.aff10 (W9 m ρ c (Proc.devRef .tc main_v96)) (W9 m ρ c (Proc.devRef .tc main_v98)) (W9 m ρ c (Proc.devRef .tc main_v99)) = _
  rw [W9_v96 m ρ c, W9_v98 m ρ c, W9_v99 m ρ c]
  rfl
/-- The result is the kernel program's function of the launch contents of the seventeen arguments. -/
theorem OUT_eq (c : Dev nD) : OUT m c = Cert.Gcn.kerOut hb10 hc128 hc10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

end Cert.KernelIdeal.Stages

end
-- ==== Proof.RefIsSpec.lean ====
/-
  The reference's run ends at the three-layer function of the arguments.

  The run's result is the composed term of the reference's host operations; the function `Cert.Gcn.refOut`
  is that same composition with its repeated parts named, so the two agree by unfolding the names.
-/
import proofs.«129800_j83099027243500_1_alg».proof.Proof.Gen.ReferenceIdeal.Run
import proofs.«129800_j83099027243500_1_alg».proof.Proof.Spec

set_option maxRecDepth 16384

noncomputable section

namespace Cert.Gcn

open Idealize.ShloMosaic Idealize.ShloMosaic.TcCoe Idealize.SL.Sem Cert.ReferenceIdeal Cert.ReferenceIdeal.Gen

set_option maxHeartbeats 4000000 in
/-- The composed term of the reference's operations is `refOut` of the launch contents of the arguments. -/
theorem ref_result (m : (ℓ : Loc nD τ sig) → Buf (Elt Ideal) ℓ) (c : Dev nD) :
    Cert.ReferenceIdeal.Value.res_out0 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  show Cert.ReferenceIdeal.Value.res_main_v163 (F := Ideal) m c = _
  unfold Cert.ReferenceIdeal.Value.res_main_v163
  rfl

end Cert.Gcn

end
-- ==== Proof.BnLaw.lean ====
/-
  The algebra that joins the two programs, on the extended reals.

  Per column the reference computes ((a + b) - mu) * r * g + be with r = rsqrt (v + eps), the kernel
  a * s + ((b - mu) * s + be) with s = g * r.  For real b, mu, g, be and a real r > 0 the two agree for EVERY
  extended real a: at a real a by distributivity; at an infinite a both sides are that infinity with the sign
  of g (or be, when g = 0).  The hypothesis r > 0 real is what v >= 0 and eps > 0 give.
-/
import Idealize.ShloMosaic.PureOps.Ideal

noncomputable section

namespace Cert.Gcn.Law

open Idealize.ShloMosaic

/-- The reciprocal square root of a positive real is a positive real. -/
theorem rsqrt_pos (s : ℝ) (hs : 0 < s) : ∃ r : ℝ, 0 < r ∧ Ideal.rsqrt (s : EReal) = (r : EReal) := by
  refine ⟨(Real.sqrt s)⁻¹, inv_pos.mpr (Real.sqrt_pos.mpr hs), ?_⟩
  rw [Ideal.rsqrt_coe, if_neg (not_lt.mpr hs.le), if_neg hs.ne']

/-- The affine map grouped the reference's way and the kernel's way, at any extended real `a`. -/
theorem affine_law (a : EReal) (b mu g be r : ℝ) (hr : 0 < r) :
    ((a + (b : EReal)) - (mu : EReal)) * (r : EReal) * (g : EReal) + (be : EReal)
      = a * ((g : EReal) * (r : EReal)) + (((b : EReal) - (mu : EReal)) * ((g : EReal) * (r : EReal)) + (be : EReal)) := by
  have hgr : (g : EReal) * (r : EReal) = ((g * r : ℝ) : EReal) := (EReal.coe_mul g r).symm
  have hbm : (b : EReal) - (mu : EReal) = ((b - mu : ℝ) : EReal) := (EReal.coe_sub b mu).symm
  rw [hgr, hbm, ← EReal.coe_mul, ← EReal.coe_add]
  induction a using EReal.rec with
  | bot =>
    rw [EReal.bot_add, EReal.bot_sub, EReal.bot_mul_coe_of_pos hr]
    rcases lt_trichotomy g 0 with hg | hg | hg
    · rw [EReal.bot_mul_coe_of_neg hg, EReal.bot_mul_coe_of_neg (mul_neg_of_neg_of_pos hg hr), EReal.top_add_coe, EReal.top_add_coe]
    · subst hg
      rw [EReal.coe_zero, mul_zero, zero_mul, EReal.coe_zero, mul_zero, mul_zero, zero_add, zero_add, zero_add]
    · rw [EReal.bot_mul_coe_of_pos hg, EReal.bot_mul_coe_of_pos (mul_pos hg hr), EReal.bot_add, EReal.bot_add]
  | coe a =>
    rw [← EReal.coe_add, ← EReal.coe_sub, ← EReal.coe_mul, ← EReal.coe_mul, ← EReal.coe_add, ← EReal.coe_mul, ← EReal.coe_add]
    exact congrArg _ (by ring)
  | top =>
    rw [EReal.top_add_coe, EReal.top_sub_coe, EReal.top_mul_coe_of_pos hr]
    rcases lt_trichotomy g 0 with hg | hg | hg
    · rw [EReal.top_mul_coe_of_neg hg, EReal.top_mul_coe_of_neg (mul_neg_of_neg_of_pos hg hr), EReal.bot_add, EReal.bot_add]
    · subst hg
      rw [EReal.coe_zero, mul_zero, zero_mul, EReal.coe_zero, mul_zero, mul_zero, zero_add, zero_add, zero_add]
    · rw [EReal.top_mul_coe_of_pos hg, EReal.top_mul_coe_of_pos (mul_pos hg hr), EReal.top_add_coe, EReal.top_add_coe]

/-- The word 0x3727C5AC (the float nearest 1e-5) denotes a positive real. -/
theorem eps_pos : ∃ e : ℝ, 0 < e ∧ Ideal.ofBits .f32 0x3727C5AC#32 = (e : EReal) := by
  refine ⟨10995116 / 1099511627776, by norm_num, ?_⟩
  simp [Ideal.ofBits, Ideal.ieee, -EReal.coe_mul]
  norm_num

end Cert.Gcn.Law

end
-- ==== Proof.LayerBridge.lean ====
/-
  The two programs' per-column maps, joined entry by entry.

  Reference: every entry of a layer's output is max (((a + b) - mu) * rsqrt (v + eps) * g + be) 0, the five column
  vectors repeated along the 100000 rows.  Kernel: max (a * s + sh) 0 with the rows s = g * rsqrt (v + eps) and
  sh = (b - mu) * s + be computed once.  At an entry (p, q) both read the column vectors at q; with b, mu, v, g, be
  real there, v ≥ 0 and eps > 0, rsqrt (v + eps) is a positive real and the two groupings are equal at every
  extended real a.  The last layer adds its bias; the kernel multiplies by a row of ones first, and x * 1 = x.
-/
import proofs.«129800_j83099027243500_1_alg».proof.Proof.KernelSpec
import proofs.«129800_j83099027243500_1_alg».proof.Proof.BnLaw
import Idealize.ShloMosaic.Lib.Pipeline.Value
import Idealize.ShloMosaic.Lib.ValueLayout
import Idealize.ShloMosaic.Lib.ValueIdx
import Idealize.ShloMosaic.PureOps.Ideal.Laws

noncomputable section

namespace Cert.Gcn

open Idealize.ShloMosaic Idealize.ShloMosaic.ValueIdx Cert.ReferenceIdeal Cert.ReferenceIdeal.Gen

/-! ### A column vector repeated along the rows, read at an entry -/

/-- Entry (p, q) of the 100000 x 128 array that repeats u along the rows is u q: the outer broadcast reads the
    1 x 128 row at (0, q), the inner one reads u at q. -/
theorem rows128_at (u : FVec Ideal S128 .f32) (p : Fin 100000) (q : Fin 128) : rows128 u (ix2 p q) = u (ix1 q) := by
  unfold rows128
  refine (broadcastInDim_apply _ _ _ _ (ix2 (0 : Fin 1) q) (fun a => ?_)).trans
    (broadcastInDim_apply _ _ _ _ (ix1 q) (fun a => ?_))
  · match a with
    | ⟨0, _⟩ => rfl
    | ⟨1, _⟩ => rfl
  · match a with
    | ⟨0, _⟩ => rfl

/-- Entry (p, q) of the 100000 x 10 array that repeats u along the rows is u q. -/
theorem rows10_at (u : FVec Ideal S10 .f32) (p : Fin 100000) (q : Fin 10) : rows10 u (ix2 p q) = u (ix1 q) := by
  unfold rows10
  refine (broadcastInDim_apply _ _ _ _ (ix2 (0 : Fin 1) q) (fun a => ?_)).trans
    (broadcastInDim_apply _ _ _ _ (ix1 q) (fun a => ?_))
  · match a with
    | ⟨0, _⟩ => rfl
    | ⟨1, _⟩ => rfl
  · match a with
    | ⟨0, _⟩ => rfl

/-- The same at an index not split into its coordinates. -/
theorem rows128_apply (u : FVec Ideal S128 .f32) (i : S100000x128.Idx) : rows128 u i = u (ix1 (i 1)) :=
  (congrArg (rows128 u) (eq_ix2 i)).trans (rows128_at u (i 0) (i 1))

theorem rows10_apply (u : FVec Ideal S10 .f32) (i : S100000x10.Idx) : rows10 u i = u (ix1 (i 1)) :=
  (congrArg (rows10 u) (eq_ix2 i)).trans (rows10_at u (i 0) (i 1))

/-! ### The words the two programs use -/

/-- The f32 word 0x3F800000 denotes 1. -/
theorem ofBits_one : Ideal.ofBits .f32 0x3F800000#32 = (1 : EReal) := by
  simp [Ideal.ofBits, Ideal.ieee, -EReal.coe_mul]
  norm_num

/-! ### One layer's affine map and maximum with zero: the two groupings agree -/

/-- At entry (p, q), with the column's b, mu, v, g, be real, v ≥ 0 and eps > 0: r = rsqrt (v + eps) is a positive
    real, the reference computes max (((a + b) - mu) * r * g + be) 0 and the kernel max (a * (g * r) + ((b - mu) * (g * r) + be)) 0,
    and the two affine maps agree at every extended real a. -/
theorem layer_eq (hc : S128.ShapeCasts S1x128) (a : FVec Ideal S100000x128 .f32) (b mu v g be : FVec Ideal S128 .f32)
    (hb : ∀ j, ∃ r : ℝ, b j = (r : EReal)) (hmu : ∀ j, ∃ r : ℝ, mu j = (r : EReal))
    (hv : ∀ j, ∃ r : ℝ, v j = (r : EReal)) (hv0 : ∀ j, (0 : EReal) ≤ v j)
    (hg : ∀ j, ∃ r : ℝ, g j = (r : EReal)) (hbe : ∀ j, ∃ r : ℝ, be j = (r : EReal)) :
    bnRelu a b mu v g be = affRelu a (scaleRow hc g v) (shiftRow hc b mu g v be) := by
  funext i
  obtain ⟨p, q, rfl⟩ : ∃ (p : Fin 100000) (q : Fin 128), i = ix2 p q := ⟨i 0, i 1, eq_ix2 i⟩
  -- the column's values, as reals
  obtain ⟨rb, hrb⟩ := hb (ix1 q)
  obtain ⟨rmu, hrmu⟩ := hmu (ix1 q)
  obtain ⟨rv, hrv⟩ := hv (ix1 q)
  obtain ⟨rg, hrg⟩ := hg (ix1 q)
  obtain ⟨rbe, hrbe⟩ := hbe (ix1 q)
  obtain ⟨e, he0, he⟩ := Law.eps_pos
  have hrv0 : 0 ≤ rv := by
    have h0 := hv0 (ix1 q)
    rw [hrv] at h0
    exact EReal.coe_nonneg.mp h0
  obtain ⟨r, hr0, hr⟩ := Law.rsqrt_pos (rv + e) (by linarith)
  -- rsqrt (v + eps) at the column is the positive real r
  have hrstd : rstd v (ix1 q) = (r : EReal) := by
    show Ideal.rsqrt (v (ix1 q) + Ideal.ofBits .f32 0x3727C5AC#32) = (r : EReal)
    rw [hrv, he, ← EReal.coe_add, hr]
  -- the reference's side at the entry
  have hL : bnRelu a b mu v g be (ix2 p q)
      = max ((((a (ix2 p q) + (rb : EReal)) - (rmu : EReal)) * (r : EReal)) * (rg : EReal) + (rbe : EReal)) 0 := by
    show max ((((a (ix2 p q) + rows128 b (ix2 p q)) - rows128 mu (ix2 p q)) * rows128 (rstd v) (ix2 p q))
        * rows128 g (ix2 p q) + rows128 be (ix2 p q)) (Ideal.ofBits .f32 0x00000000#32) = _
    rw [rows128_at, rows128_at, rows128_at, rows128_at, rows128_at, Ideal.ofBits_zero_f32,
      hrb, hrmu, hrstd, hrg, hrbe]
  -- the kernel's side at the entry
  have hsc : scaleRow hc g v (ix2 (0 : Fin 1) q) = (rg : EReal) * (r : EReal) :=
    (shapeCast_a_1a_apply (mulf g (rstd v)) hc (0 : Fin 1) q).trans (by
      show g (ix1 q) * rstd v (ix1 q) = _
      rw [hrg, hrstd])
  have hsh : shiftRow hc b mu g v be (ix2 (0 : Fin 1) q)
      = ((rb : EReal) - (rmu : EReal)) * ((rg : EReal) * (r : EReal)) + (rbe : EReal) :=
    (shapeCast_a_1a_apply (addf (mulf (subf b mu) (mulf g (rstd v))) be) hc (0 : Fin 1) q).trans (by
      show (b (ix1 q) - mu (ix1 q)) * (g (ix1 q) * rstd v (ix1 q)) + be (ix1 q) = _
      rw [hrb, hrmu, hrg, hrstd, hrbe])
  have hR : affRelu a (scaleRow hc g v) (shiftRow hc b mu g v be) (ix2 p q)
      = max (a (ix2 p q) * ((rg : EReal) * (r : EReal))
          + (((rb : EReal) - (rmu : EReal)) * ((rg : EReal) * (r : EReal)) + (rbe : EReal))) 0 := by
    show max (a (ix2 p q) * scaleRow hc g v (ix2 (0 : Fin 1) q) + shiftRow hc b mu g v be (ix2 (0 : Fin 1) q)) 0 = _
    rw [hsc, hsh]
  rw [hL, hR, Law.affine_law (a (ix2 p q)) rb rmu rg rbe r hr0]

/-! ### The last layer: adding the bias is multiplying by one and adding it -/

theorem last_eq (hb : S_.BroadcastsInDim S10 (![] : Fin S_.rank → Fin S10.rank)) (hc : S10.ShapeCasts S1x10)
    (a : FVec Ideal S100000x10 .f32) (b3 : FVec Ideal S10 .f32) :
    addf a (rows10 b3) = aff10 a (onesRow hb hc) (biasRow hc b3) := by
  funext i
  obtain ⟨p, q, rfl⟩ : ∃ (p : Fin 100000) (q : Fin 10), i = ix2 p q := ⟨i 0, i 1, eq_ix2 i⟩
  have hone : onesRow hb hc (ix2 (0 : Fin 1) q) = (1 : EReal) :=
    (shapeCast_a_1a_apply (broadcastInDim S10 ![] hb (constant (F := Ideal) S_ .f32 0x3F800000#32)) hc (0 : Fin 1) q).trans
      ofBits_one
  have hbias : biasRow hc b3 (ix2 (0 : Fin 1) q) = b3 (ix1 q) := shapeCast_a_1a_apply b3 hc (0 : Fin 1) q
  show a (ix2 p q) + rows10 b3 (ix2 p q)
      = a (ix2 p q) * onesRow hb hc (ix2 (0 : Fin 1) q) + biasRow hc b3 (ix2 (0 : Fin 1) q)
  rw [rows10_at, hone, hbias, mul_one]

end Cert.Gcn

end
-- ==== Proof.Bridge.lean ====
/-
  The two programs compute the same function of the arguments.

  Layer by layer the reference's bias, batch normalisation and maximum with zero is the kernel's scale-and-shift
  form (`layer_eq`: the affine law on the extended reals, which needs the per-column statistics real and the
  variances nonnegative, and nothing of the aggregated features); the last layer's bias is the kernel's a * 1 + b.
  Everything else — the dense products, the gathers and the accumulating scatters — is the same operation applied
  to the same arrays on both sides.
-/
import proofs.«129800_j83099027243500_1_alg».proof.Proof.LayerBridge

noncomputable section

namespace Cert.Gcn

open Idealize.ShloMosaic Cert.ReferenceIdeal Cert.ReferenceIdeal.Gen

/-- The reference's function is the kernel's, for real per-column parameters and nonnegative variances. -/
theorem refOut_eq_kerOut (hb10 : S_.BroadcastsInDim S10 (![] : Fin S_.rank → Fin S10.rank)) (h128 : S128.ShapeCasts S1x128)
    (h10 : S10.ShapeCasts S1x10)
    (x : FVec Ideal S100000x128 .f32) (src dst : IVec S1600000 32)
    (W1 : FVec Ideal S128x128 .f32) (b1 g1 be1 m1 v1 : FVec Ideal S128 .f32)
    (W2 : FVec Ideal S128x128 .f32) (b2 g2 be2 m2 v2 : FVec Ideal S128 .f32)
    (W3 : FVec Ideal S128x10 .f32) (b3 : FVec Ideal S10 .f32)
    (hb1 : ∀ j, ∃ r : ℝ, b1 j = (r : EReal)) (hg1 : ∀ j, ∃ r : ℝ, g1 j = (r : EReal)) (hbe1 : ∀ j, ∃ r : ℝ, be1 j = (r : EReal))
    (hm1 : ∀ j, ∃ r : ℝ, m1 j = (r : EReal)) (hv1 : ∀ j, ∃ r : ℝ, v1 j = (r : EReal)) (hv1' : ∀ j, (0 : EReal) ≤ v1 j)
    (hb2 : ∀ j, ∃ r : ℝ, b2 j = (r : EReal)) (hg2 : ∀ j, ∃ r : ℝ, g2 j = (r : EReal)) (hbe2 : ∀ j, ∃ r : ℝ, be2 j = (r : EReal))
    (hm2 : ∀ j, ∃ r : ℝ, m2 j = (r : EReal)) (hv2 : ∀ j, ∃ r : ℝ, v2 j = (r : EReal)) (hv2' : ∀ j, (0 : EReal) ≤ v2 j) :
    refOut x src dst W1 b1 g1 be1 m1 v1 W2 b2 g2 be2 m2 v2 W3 b3
      = kerOut hb10 h128 h10 x src dst W1 b1 g1 be1 m1 v1 W2 b2 g2 be2 m2 v2 W3 b3 := by
  unfold refOut kerOut
  rw [layer_eq h128 _ b1 m1 v1 g1 be1 hb1 hm1 hv1 hv1' hg1 hbe1, layer_eq h128 _ b2 m2 v2 g2 be2 hb2 hm2 hv2 hv2' hg2 hbe2,
    last_eq hb10 h10]

end Cert.Gcn

end
-- ==== Proof.PreFacts.lean ====
/-
  The precondition of the claim, read back as facts about the argument arrays at the extended reals.

  The generated predicate is the conjunction, over the float arguments, of "every entry x has |x| < +∞", and
  then of "every entry of argument 8 is ≥ 0" and "every entry of argument 14 is ≥ 0". Each conjunct is a
  reduction by `and` of an array of one-bit comparison results into a single bit. At the extended reals
  |x| is max x (-x), the pattern 0x7F800000 denotes ⊤ and the pattern 0x00000000 denotes 0, so the predicate
  being 1 says: every entry of each float argument is a real number (neither ⊤ nor ⊥), and every entry of
  arguments 8 and 14 is nonnegative. Only the ten length-128 arguments the value proof uses are stated.
-/
import proofs.«129800_j83099027243500_1_alg».proof.Pre_finite_inputs
import Idealize.ShloMosaic.Lib.ReduceAll
import Idealize.ShloMosaic.Lib.ValueIdx
import Idealize.ShloMosaic.PureOps.Ideal.Laws

noncomputable section

namespace Cert.Gcn.PreFacts

open Idealize.ShloMosaic Idealize.ShloMosaic.ValueIdx
open Cert.Pre_finite_inputs

/-- The rank-0 shape has exactly one index. -/
instance : Subsingleton S_.Idx := ⟨fun a b => funext fun d => d.elim0⟩

/-! ### One element -/

/-- The f32 pattern with all exponent bits set and a zero significand denotes +∞. -/
theorem ofBits_inf : Ideal.ofBits .f32 0x7F800000#32 = (⊤ : EReal) := by
  simp [Ideal.ofBits, Ideal.ieee]

/-- An extended real whose absolute value max x (-x) is below ⊤ is a real: ⊤ gives max ⊤ ⊥ = ⊤ and
    ⊥ gives max ⊥ ⊤ = ⊤, neither below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The comparison |x| < +∞ coming out 1 makes x a real. -/
theorem real_of_cmp (x : EReal)
    (h : Ideal.cmp .olt (max x (-x)) (Ideal.ofBits .f32 0x7F800000#32) = 1#1) : ∃ r : ℝ, x = (r : EReal) := by
  unfold Ideal.cmp at h
  rw [ofBool_eq_one, ofBits_inf] at h
  exact real_of_abs_lt_top x (of_decide_eq_true h)

/-- The comparison x ≥ 0 coming out 1 makes x nonnegative. -/
theorem nonneg_of_cmp (x : EReal)
    (h : Ideal.cmp .oge x (Ideal.ofBits .f32 0x00000000#32) = 1#1) : (0 : EReal) ≤ x := by
  unfold Ideal.cmp at h
  rw [ofBool_eq_one, Ideal.ofBits_zero_f32] at h
  exact of_decide_eq_true h

/-! ### One array, of any shape -/

/-- If the `and` over all entries of "|v i| < +∞" is 1, every entry of v is a real. -/
theorem real_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf v) (broadcastInDim s ![] hb (constant (F := Ideal) S_ .f32 0x7F800000#32)))
          init hr hu ix0 = 1#1) :
    ∀ i, ∃ r : ℝ, v i = (r : EReal) := fun i =>
  real_of_cmp (v i) (Host.reduce_andi_all _ init hr hu ix0 e i)

/-- If the `and` over all entries of "v i ≥ 0" is 1, every entry of v is nonnegative. -/
theorem nonneg_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .oge v (broadcastInDim s ![] hb (constant (F := Ideal) S_ .f32 0x00000000#32)))
          init hr hu ix0 = 1#1) :
    ∀ i, (0 : EReal) ≤ v i := fun i =>
  nonneg_of_cmp (v i) (Host.reduce_andi_all _ init hr hu ix0 e i)

/-! ### The whole predicate -/

section
variable [Facts]
variable {a0 : FVec Ideal S100000x128 .f32} {a1 : IVec S1600000 32} {a2 : IVec S1600000 32}
  {a3 : FVec Ideal S128x128 .f32} {a4 a5 a6 a7 a8 : FVec Ideal S128 .f32} {a9 : FVec Ideal S128x128 .f32}
  {a10 a11 a12 a13 a14 : FVec Ideal S128 .f32} {a15 : FVec Ideal S128x10 .f32} {a16 : FVec Ideal S10 .f32}

/-- The predicate is a left-nested conjunction of seventeen one-bit results (fifteen "all entries finite", then
    the two "all entries ≥ 0"); it is 1 exactly when each is. Split once, the twelve conjuncts needed are read
    back through the array lemmas above. -/
theorem all_facts (h : fn (F := Ideal) a0 a1 a2 a3 a4 a5 a6 a7 a8 a9 a10 a11 a12 a13 a14 a15 a16 = fun _ => 1#1) :
    (∀ j, ∃ r : ℝ, a4 j = (r : EReal)) ∧ (∀ j, ∃ r : ℝ, a5 j = (r : EReal)) ∧
    (∀ j, ∃ r : ℝ, a6 j = (r : EReal)) ∧ (∀ j, ∃ r : ℝ, a7 j = (r : EReal)) ∧
    (∀ j, ∃ r : ℝ, a8 j = (r : EReal)) ∧ (∀ j, ∃ r : ℝ, a10 j = (r : EReal)) ∧
    (∀ j, ∃ r : ℝ, a11 j = (r : EReal)) ∧ (∀ j, ∃ r : ℝ, a12 j = (r : EReal)) ∧
    (∀ j, ∃ r : ℝ, a13 j = (r : EReal)) ∧ (∀ j, ∃ r : ℝ, a14 j = (r : EReal)) ∧
    (∀ j, (0 : EReal) ≤ a8 j) ∧ (∀ j, (0 : EReal) ≤ a14 j) := by
  have e := congrFun h ix0
  dsimp only [fn, fn_part1, fn_part2, fn_part3, fn_part4, andi] at e
  simp only [IntOp.andi_eq_one] at e
  obtain ⟨⟨⟨⟨⟨⟨⟨⟨⟨⟨⟨⟨⟨⟨⟨⟨-, -⟩, e4⟩, e5⟩, e6⟩, e7⟩, e8⟩, -⟩, e10⟩, e11⟩, e12⟩, e13⟩, e14⟩, -⟩, -⟩, n8⟩, n14⟩ := e
  exact ⟨real_of_all a4 _ _ _ _ e4, real_of_all a5 _ _ _ _ e5, real_of_all a6 _ _ _ _ e6,
    real_of_all a7 _ _ _ _ e7, real_of_all a8 _ _ _ _ e8, real_of_all a10 _ _ _ _ e10,
    real_of_all a11 _ _ _ _ e11, real_of_all a12 _ _ _ _ e12, real_of_all a13 _ _ _ _ e13,
    real_of_all a14 _ _ _ _ e14, nonneg_of_all a8 _ _ _ _ n8, nonneg_of_all a14 _ _ _ _ n14⟩

variable (h : fn (F := Ideal) a0 a1 a2 a3 a4 a5 a6 a7 a8 a9 a10 a11 a12 a13 a14 a15 a16 = fun _ => 1#1)
include h

theorem real4 : ∀ j, ∃ r : ℝ, a4 j = (r : EReal) := (all_facts h).1
theorem real5 : ∀ j, ∃ r : ℝ, a5 j = (r : EReal) := (all_facts h).2.1
theorem real6 : ∀ j, ∃ r : ℝ, a6 j = (r : EReal) := (all_facts h).2.2.1
theorem real7 : ∀ j, ∃ r : ℝ, a7 j = (r : EReal) := (all_facts h).2.2.2.1
theorem real8 : ∀ j, ∃ r : ℝ, a8 j = (r : EReal) := (all_facts h).2.2.2.2.1
theorem real10 : ∀ j, ∃ r : ℝ, a10 j = (r : EReal) := (all_facts h).2.2.2.2.2.1
theorem real11 : ∀ j, ∃ r : ℝ, a11 j = (r : EReal) := (all_facts h).2.2.2.2.2.2.1
theorem real12 : ∀ j, ∃ r : ℝ, a12 j = (r : EReal) := (all_facts h).2.2.2.2.2.2.2.1
theorem real13 : ∀ j, ∃ r : ℝ, a13 j = (r : EReal) := (all_facts h).2.2.2.2.2.2.2.2.1
theorem real14 : ∀ j, ∃ r : ℝ, a14 j = (r : EReal) := (all_facts h).2.2.2.2.2.2.2.2.2.1
theorem nonneg8 : ∀ j, (0 : EReal) ≤ a8 j := (all_facts h).2.2.2.2.2.2.2.2.2.2.1
theorem nonneg14 : ∀ j, (0 : EReal) ≤ a14 j := (all_facts h).2.2.2.2.2.2.2.2.2.2.2

end

end Cert.Gcn.PreFacts

end
-- ==== Proof.lean ====
/-
  A three-layer graph convolution (dense product, normalised neighbourhood sum, bias and batch normalisation,
  maximum with zero; the last layer with its bias only) on 100000 nodes and 1600000 edges: the kernel program
  against the reference, on the extended reals.

  The kernel program runs the dense products and the elementwise maps as six launches over twenty row blocks and the
  gathers and accumulating scatters as host operations between them; its result is one function `kerOut` of the
  seventeen argument arrays (the launches: LinearLaunches, ElementwiseLaunches; the fold of the buffers through the
  program: StageA, StageB, StageC; the run: KernelRun).  The reference's run ends at `refOut` of the same arrays
  (RefIsSpec).  The two functions differ only in how each of the first two layers groups its per-column affine map,
  and agree when the per-column parameters are real and the variances nonnegative (BnLaw, LayerBridge, Bridge) —
  which the precondition states (PreFacts): every float input finite, and both variance vectors nonnegative, the
  domain on which the reference's rsqrt (v + eps) is a positive real.
-/
import proofs.«129800_j83099027243500_1_alg».proof.Defs
import proofs.«129800_j83099027243500_1_alg».proof.Proof.Gen.Kernel
import proofs.«129800_j83099027243500_1_alg».proof.Proof.Gen.Kernel.Frame
import proofs.«129800_j83099027243500_1_alg».proof.Proof.Gen.KernelIdeal
import proofs.«129800_j83099027243500_1_alg».proof.Proof.Gen.KernelIdeal.Frame
import proofs.«129800_j83099027243500_1_alg».proof.Proof.Gen.ReferenceIdeal
import proofs.«129800_j83099027243500_1_alg».proof.Proof.Gen.Pre_finite_inputs
import proofs.«129800_j83099027243500_1_alg».proof.Proof.Gen.ReferenceIdeal.Run
import proofs.«129800_j83099027243500_1_alg».proof.Proof.KernelRun
import proofs.«129800_j83099027243500_1_alg».proof.Proof.StageC
import proofs.«129800_j83099027243500_1_alg».proof.Proof.RefIsSpec
import proofs.«129800_j83099027243500_1_alg».proof.Proof.Bridge
import proofs.«129800_j83099027243500_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at `kerOut` of the arguments: the kernel program by its
    run and the fold of its buffers, the reference by its run, `refOut`, and `refOut = kerOut` under the precondition. -/
theorem algebraic : Cert.algebraic_KernelIdeal_ReferenceIdeal := by
  intro m ρ m' ρ' hpre hagree
  refine ⟨fun c => Cert.KernelIdeal.Stages.OUT m c, ?_, ?_⟩
  · exact (θ_run Cert.KernelIdeal.defs _ _).mono
      (fun r h c => ⟨(h c).1.trans (Cert.KernelIdeal.Stages.W10_v100 m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    have hp := hpre c
    obtain ⟨a0, a1, a2, a3, a4, a5, a6, a7, a8, a9, a10, a11, a12, a13, a14, a15, a16⟩ := hagree c
    refine (Cert.Gcn.ref_result m' c).trans ?_
    rw [a0, a1, a2, a3, a4, a5, a6, a7, a8, a9, a10, a11, a12, a13, a14, a15, a16]
    refine Eq.trans ?_ (Cert.KernelIdeal.Stages.OUT_eq m c).symm
    exact Cert.Gcn.refOut_eq_kerOut Cert.KernelIdeal.Stages.hb10 Cert.KernelIdeal.Stages.hc128 Cert.KernelIdeal.Stages.hc10
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (Cert.Gcn.PreFacts.real4 hp) (Cert.Gcn.PreFacts.real5 hp) (Cert.Gcn.PreFacts.real6 hp) (Cert.Gcn.PreFacts.real7 hp)
      (Cert.Gcn.PreFacts.real8 hp) (Cert.Gcn.PreFacts.nonneg8 hp)
      (Cert.Gcn.PreFacts.real10 hp) (Cert.Gcn.PreFacts.real11 hp) (Cert.Gcn.PreFacts.real12 hp) (Cert.Gcn.PreFacts.real13 hp)
      (Cert.Gcn.PreFacts.real14 hp) (Cert.Gcn.PreFacts.nonneg14 hp)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
